-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S768x768 : Shape := ⟨2, ![768, 768]⟩
abbrev S768 : Shape := ⟨1, ![768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S768x768 .f32) (main_arg8 : FVec F S768 .f32) (main_arg9 : FVec F S768x768 .f32) (main_arg10 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x768 .f32 := Host.absf main_arg9
  let main_cst_16 : FVec F S_ .f32 := constant S_ .f32 0x7F800000#32
  let main_v45 : FVec F S768x768 .f32 := broadcastInDim S768x768 ![] bcast_S_S768x768 main_cst_16
  let main_v46 : IVec S768x768 1 := cmpf .olt main_v44 main_v45
  let main_c_17 : IVec S_ 1 := constantI S_ 1 1#1
  let main_v47 : IVec S_ 1 := (fun x v => Host.reduce IntOp.andi x v reducesTo_S768x768_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_arg9 : FVec F S768x768 .f32) (main_arg10 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x768 .f32) (main_arg1 : FVec F S2x2048x768 .f32) (main_arg2 : FVec F S2x2048x768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S768x768 .f32) (main_arg10 : FVec F S768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2x2048x768 .f32 := Host.absf main_arg1
  let main_cst_0 : FVec F S_ .f32 := constant S_ .f32 0x7F800000#32
  let main_v5 : FVec F S2x2048x768 .f32 := broadcastInDim S2x2048x768 ![] bcast_S_S2x2048x768 main_cst_0
  let main_v6 : IVec S2x2048x768 1 := cmpf .olt main_v4 main_v5
  let main_c_1 : IVec S_ 1 := constantI S_ 1 1#1
  let main_v7 : IVec S_ 1 := (fun x v => Host.reduce IntOp.andi x v reducesTo_S2x2048x768_S_d0_1_2 h_S_) main_v6 main_c_1
  let main_v8 : IVec S_ 1 := andi main_v3 main_v7
  let main_v9 : FVec F S2x2048x768 .f32 := Host.absf main_arg2
  let main_cst_2 : FVec F S_ .f32 := constant S_ .f32 0x7F800000#32
  let main_v10 : FVec F S2x2048x768 .f32 := broadcastInDim S2x2048x768 ![] bcast_S_S2x2048x768 main_cst_2
  let main_v11 : IVec S2x2048x768 1 := cmpf .olt main_v9 main_v10
  let main_c_3 : IVec S_ 1 := constantI S_ 1 1#1
  let main_v12 : IVec S_ 1 := (fun x v => Host.reduce IntOp.andi x v reducesTo_S2x2048x768_S_d0_1_2 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_v13 main_v16
-- ==== Kernel.lean ====
abbrev S2x2048x768 : Shape := ⟨3, ![2, 2048, 768]⟩
abbrev S768x768 : Shape := ⟨2, ![768, 768]⟩
abbrev S768 : Shape := ⟨1, ![768]⟩
abbrev S4096x768 : Shape := ⟨2, ![4096, 768]⟩
abbrev S512x768 : Shape := ⟨2, ![512, 768]⟩
abbrev S1x768 : Shape := ⟨2, ![1, 768]⟩
abbrev S2x12x2048x2048 : Shape := ⟨4, ![2, 12, 2048, 2048]⟩
abbrev S256x128 : Shape := ⟨2, ![256, 128]⟩
abbrev S2048x128 : Shape := ⟨2, ![2048, 128]⟩
abbrev S1x2x256x2048 : Shape := ⟨4, ![1, 2, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1x256x2048 : Shape := ⟨4, ![1, 1, 256, 2048]⟩

abbrev nBuf : Space → Nat
  | .hbm => 29
  | .vmem => 34
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S768x768, .f32⟩
  | .hbm, ⟨15, _⟩ => ⟨S768x768, .bf16⟩
  | .hbm, ⟨16, _⟩ => ⟨S768x768, .f32⟩
  | .hbm, ⟨17, _⟩ => ⟨S768x768, .bf16⟩
  | .hbm, ⟨18, _⟩ => ⟨S768x768, .f32⟩
  | .hbm, ⟨19, _⟩ => ⟨S768x768, .bf16⟩
  | .hbm, ⟨20, _⟩ => ⟨S768x768, .f32⟩
  | .hbm, ⟨21, _⟩ => ⟨S768x768, .bf16⟩
  | .hbm, ⟨22, _⟩ => ⟨S4096x768, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S2x12x2048x2048, .f32⟩
  | .hbm, ⟨27, _⟩ => ⟨S4096x768, .f32⟩
  | .hbm, ⟨28, _⟩ => ⟨S2x2048x768, .f32⟩
  | .local _ .vmem, ⟨0, _⟩ => ⟨S512x768, .f32⟩
  | .local _ .vmem, ⟨1, _⟩ => ⟨S512x768, .f32⟩
  | .local _ .vmem, ⟨2, _⟩ => ⟨S768x768, .bf16⟩
  | .local _ .vmem, ⟨3, _⟩ => ⟨S768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S768x768, .bf16⟩
  | .local _ .vmem, ⟨9, _⟩ => ⟨S768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S768x768, .bf16⟩
  | .local _ .vmem, ⟨15, _⟩ => ⟨S768, .f32⟩
  | .local _ .vmem, ⟨16, _⟩ => ⟨S512x768, .f32⟩
  | .local _ .vmem, ⟨17, _⟩ => ⟨S512x768, .f32⟩
  | .local _ .vmem, ⟨18, _⟩ => ⟨S256x128, .f32⟩
  | .local _ .vmem, ⟨19, _⟩ => ⟨S256x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S256x128, .f32⟩
  | .local _ .vmem, ⟨25, _⟩ => ⟨S256x128, .f32⟩
  | .local _ .vmem, ⟨26, _⟩ => ⟨S1x2x256x2048, .f32⟩
  | .local _ .vmem, ⟨27, _⟩ => ⟨S1x2x256x2048, .f32⟩
  | .local _ .vmem, ⟨28, _⟩ => ⟨S512x768, .f32⟩
  | .local _ .vmem, ⟨29, _⟩ => ⟨S512x768, .f32⟩
  | .local _ .vmem, ⟨30, _⟩ => ⟨S768x768, .bf16⟩
  | .local _ .vmem, ⟨31, _⟩ => ⟨S768, .f32⟩
  | .local _ .vmem, ⟨32, _⟩ => ⟨S512x768, .f32⟩
  | .local _ .vmem, ⟨33, _⟩ => ⟨S512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 6, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x2x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S768x768 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x768_S4096x768 : S2x2048x768.ShapeCasts S4096x768
  transposes_S768x768_S768x768_1_0 : S768x768.Transposes [1, 0] S768x768
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  inb_S1x2x256x2048_S1x1x256x2048_0_0_0_0 : ∀ a, (![0, 0, 0, 0] : Fin 4 → Nat) a + S1x1x256x2048.size a ≤ S1x2x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  slices_S256x128_o0_64_S256x64 : S256x128.Slices ![0, 64] S256x64
  slices_S2048x128_o0_64_S2048x64 : S2048x128.Slices ![0, 64] S2048x64
  inb_S1x2x256x2048_S1x1x256x2048_0_1_0_0 : ∀ a, (![0, 1, 0, 0] : Fin 4 → Nat) a + S1x1x256x2048.size a ≤ S1x2x256x2048.size a
  concatenates_S256x64_S256x64_S256x128_d1 : Shape.Concatenates [S256x64, S256x64] S256x128 1
  shapeCasts_S4096x768_S2x2048x768 : S4096x768.ShapeCasts S2x2048x768
  dot_S512x768_S768x768_S512x768_1_0_0_1_n_n_wf : DotDims.WF S512x768 S768x768 S512x768 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S4096x768.size a
  hwx0_3 : ∀ i : grid0.Coords, EltTy.bits .f32 = 32 ∨ (Rect.block (s := S4096x768) S512x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S4096x768.size a
  hwx1_0 : ∀ i : grid1.Coords, EltTy.bits .f32 = 32 ∨ (Rect.block (s := S4096x768) S512x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768.size a ≤ S768.size a
  hwx1_2 : ∀ i : grid1.Coords, EltTy.bits .f32 = 32 ∨ (Rect.block (s := S768) S768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x768.size a ≤ S4096x768.size a
  hwx1_3 : ∀ i : grid1.Coords, EltTy.bits .f32 = 32 ∨ (Rect.block (s := S4096x768) S512x768.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .f32 = 32 ∨ (Rect.block (s := S4096x768) S512x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S4096x768.size a
  hwx2_3 : ∀ i : grid2.Coords, EltTy.bits .f32 = 32 ∨ (Rect.block (s := S4096x768) S512x768.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S4096x768.size a
  hwx3_0 : ∀ i : grid3.Coords, EltTy.bits .f32 = 32 ∨ (Rect.block (s := S4096x768) S256x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S4096x768.size a
  hwx3_1 : ∀ i : grid3.Coords, EltTy.bits .f32 = 32 ∨ (Rect.block (s := S4096x768) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S4096x768.size a
  hwx3_2 : ∀ i : grid3.Coords, EltTy.bits .f32 = 32 ∨ (Rect.block (s := S4096x768) S2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S4096x768.size a
  hwx3_3 : ∀ i : grid3.Coords, EltTy.bits .f32 = 32 ∨ (Rect.block (s := S4096x768) S256x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2x256x2048.size a ≤ S2x12x2048x2048.size a
  hwx3_4 : ∀ i : grid3.Coords, EltTy.bits .f32 = 32 ∨ (Rect.block (s := S2x12x2048x2048) S1x2x256x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x768.size a ≤ S4096x768.size a
  hwx4_0 : ∀ i : grid4.Coords, EltTy.bits .f32 = 32 ∨ (Rect.block (s := S4096x768) S512x768.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S768x768.size a ≤ S768x768.size a
  hwx4_1 : ∀ i : grid4.Coords, EltTy.bits .bf16 = 32 ∨ (Rect.block (s := S768x768) S768x768.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S768.size a ≤ S768.size a
  hwx4_2 : ∀ i : grid4.Coords, EltTy.bits .f32 = 32 ∨ (Rect.block (s := S768) S768.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x768.size a ≤ S4096x768.size a
  hwx4_3 : ∀ i : grid4.Coords, EltTy.bits .f32 = 32 ∨ (Rect.block (s := S4096x768) S512x768.size (cc4_transform_3 i) (hinb4_3 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S512x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v11) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14_0) S256x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v14_1) S1x2x256x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v14_0) S512x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S768x768.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S512x768.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x768 : Shape := ⟨3, ![2, 2048, 768]⟩
abbrev S768x768 : Shape := ⟨2, ![768, 768]⟩
abbrev S768 : Shape := ⟨1, ![768]⟩
abbrev S1x1x768 : Shape := ⟨3, ![1, 1, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x768, .f32⟩
  | .hbm, ⟨12, _⟩ => ⟨S2x2048x768, .f32⟩
  | .hbm, ⟨13, _⟩ => ⟨S1x1x768, .f32⟩
  | .hbm, ⟨14, _⟩ => ⟨S2x2048x768, .f32⟩
  | .hbm, ⟨15, _⟩ => ⟨S2x2048x768, .f32⟩
  | .hbm, ⟨16, _⟩ => ⟨S2x2048x12x64, .f32⟩
  | .hbm, ⟨17, _⟩ => ⟨S2x12x2048x64, .f32⟩
  | .hbm, ⟨18, _⟩ => ⟨S768x768, .f32⟩
  | .hbm, ⟨19, _⟩ => ⟨S2x2048x768, .f32⟩
  | .hbm, ⟨20, _⟩ => ⟨S1x1x768, .f32⟩
  | .hbm, ⟨21, _⟩ => ⟨S2x2048x768, .f32⟩
  | .hbm, ⟨22, _⟩ => ⟨S2x2048x768, .f32⟩
  | .hbm, ⟨23, _⟩ => ⟨S2x2048x12x64, .f32⟩
  | .hbm, ⟨24, _⟩ => ⟨S2x12x2048x64, .f32⟩
  | .hbm, ⟨25, _⟩ => ⟨S768x768, .f32⟩
  | .hbm, ⟨26, _⟩ => ⟨S2x2048x768, .f32⟩
  | .hbm, ⟨27, _⟩ => ⟨S1x1x768, .f32⟩
  | .hbm, ⟨28, _⟩ => ⟨S2x2048x768, .f32⟩
  | .hbm, ⟨29, _⟩ => ⟨S2x2048x768, .f32⟩
  | .hbm, ⟨30, _⟩ => ⟨S2x2048x12x64, .f32⟩
  | .hbm, ⟨31, _⟩ => ⟨S2x12x2048x64, .f32⟩
  | .hbm, ⟨32, _⟩ => ⟨S2x12x2048x2048, .f32⟩
  | .hbm, ⟨33, _⟩ => ⟨S_, .f32⟩
  | .hbm, ⟨34, _⟩ => ⟨S_, .f32⟩
  | .hbm, ⟨35, _⟩ => ⟨S2x12x2048x2048, .f32⟩
  | .hbm, ⟨36, _⟩ => ⟨S2x12x2048x2048, .f32⟩
  | .hbm, ⟨37, _⟩ => ⟨S_, .f32⟩
  | .hbm, ⟨38, _⟩ => ⟨S2x12x2048, .f32⟩
  | .hbm, ⟨39, _⟩ => ⟨S_, .f32⟩
  | .hbm, ⟨40, _⟩ => ⟨S2x12x2048, .f32⟩
  | .hbm, ⟨41, _⟩ => ⟨S2x12x2048, .f32⟩
  | .hbm, ⟨42, _⟩ => ⟨S2x12x2048x1, .f32⟩
  | .hbm, ⟨43, _⟩ => ⟨S2x12x2048x2048, .f32⟩
  | .hbm, ⟨44, _⟩ => ⟨S2x12x2048x2048, .f32⟩
  | .hbm, ⟨45, _⟩ => ⟨S2x12x2048x2048, .f32⟩
  | .hbm, ⟨46, _⟩ => ⟨S_, .f32⟩
  | .hbm, ⟨47, _⟩ => ⟨S2x12x2048, .f32⟩
  | .hbm, ⟨48, _⟩ => ⟨S2x12x2048x1, .f32⟩
  | .hbm, ⟨49, _⟩ => ⟨S2x12x2048x2048, .f32⟩
  | .hbm, ⟨50, _⟩ => ⟨S2x12x2048x2048, .f32⟩
  | .hbm, ⟨51, _⟩ => ⟨S2x12x2048x64, .f32⟩
  | .hbm, ⟨52, _⟩ => ⟨S2x2048x12x64, .f32⟩
  | .hbm, ⟨53, _⟩ => ⟨S2x2048x768, .f32⟩
  | .hbm, ⟨54, _⟩ => ⟨S768x768, .f32⟩
  | .hbm, ⟨55, _⟩ => ⟨S2x2048x768, .f32⟩
  | .hbm, ⟨56, _⟩ => ⟨S1x1x768, .f32⟩
  | .hbm, ⟨57, _⟩ => ⟨S2x2048x768, .f32⟩
  | .hbm, ⟨58, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  dot_S2x2048x768_S768x768_S2x2048x768_2_0_01_1_n_n_wf : DotDims.WF S2x2048x768 S768x768 S2x2048x768 [2] [0] [0, 1] [1] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x2048x768_S768x768_S2x2048x768_2_0_01_1_n_n : DotDims S2x2048x768 S768x768 S2x2048x768 where
  lhsContracting := [2]
  rhsContracting := [0]
  lhsNonContracting := [0, 1]
  rhsNonContracting := [1]
  lhsBatch := []
  rhsBatch := []
  wf := dot_S2x2048x768_S768x768_S2x2048x768_2_0_01_1_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.KernelRun.lean ====
/-
  The idealized kernel's run with its two result arrays named.  The program is seven segments: the host operations
  before the first launch, five pipelines, and the closing reshape.  The contents of every unscoped buffer at each
  boundary are a fold from the launch memory; the last boundary is `W7`.  Every weakly fair execution terminates with
  each buffer at its `W7` contents; read at the two result buffers and at the eleven arguments this is the statement
  below (the arguments walk back through the fold to the launch memory).
-/
import proofs.«113033_j45612552684065_2_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the projected output and the attention weights at the last boundary's
    contents, and the arguments as launched. -/
theorem run_named : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_v14_1) = W7 m ρ c (Proc.devRef .tc main_v14_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       h c _ (mem_uc main_v14_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Outputs

end
-- ==== Proof.ProjectionBody0.lean ====
/-
  One grid point of projection 0: the 512 × 768 tile the body stores is, entry by entry, the row of the input tile times
  the column of the (already transposed) weight matrix, summed over the 768 contracted coordinates, plus the bias entry of
  that column.  The product is a matrix product into a zero accumulator; the bias is a [768] vector viewed as one row and
  repeated down the 512 rows.
-/
import proofs.«113033_j45612552684065_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Projection0

open Idealize.ShloMosaic Idealize.ShloMosaic.TcCoe Idealize.SL.Sem Idealize.ShloMosaic.ValueIdx Cert.KernelIdeal Cert.KernelIdeal.Gen

theorem lhs_row (j : S512x768.Idx) (q : dot_S512x768_S768x768_S512x768_1_0_0_1_n_n.contr.Idx) :
    (dot_S512x768_S768x768_S512x768_1_0_0_1_n_n.lhsIdx j q 0).val = (j 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem rhs_col (j : S512x768.Idx) (q : dot_S512x768_S768x768_S512x768_1_0_0_1_n_n.contr.Idx) :
    (dot_S512x768_S768x768_S512x768_1_0_0_1_n_n.rhsIdx j q 1).val = (j 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The tile product into a zero accumulator at `(p, f)`: the sum over `e` of `A (p, e) * B (e, f)`. -/
theorem product_at (A : FVec Ideal S512x768 .bf16) (B : FVec Ideal S768x768 .bf16) (p : Fin 512) (f : Fin 768) :
    matmul dot_S512x768_S768x768_S512x768_1_0_0_1_n_n none A B (constant (F := Ideal) S512x768 .f32 0x00000000#32) (ix2 p f)
      = ∑ e : Fin 768, A (ix2 p e) * B (ix2 e f) := by
  show FloatOps.matmul dot_S512x768_S768x768_S512x768_1_0_0_1_n_n none A B (constant (F := Ideal) S512x768 .f32 0x00000000#32) (ix2 p f) = _
  rw [Ideal.matmul_constant_zero_apply, ← Equiv.sum_comp (contrEquiv1 dot_S512x768_S768x768_S512x768_1_0_0_1_n_n 768 rfl rfl).symm]
  refine Finset.sum_congr rfl fun e _ => ?_
  have hk := contrEquiv1_symm_val dot_S512x768_S768x768_S512x768_1_0_0_1_n_n 768 rfl rfl e
  have el : dot_S512x768_S768x768_S512x768_1_0_0_1_n_n.lhsIdx (ix2 p f) ((contrEquiv1 dot_S512x768_S768x768_S512x768_1_0_0_1_n_n 768 rfl rfl).symm e) = ix2 p e := funext fun a => Fin.ext (by
    match a with
    | ⟨0, _⟩ => exact lhs_row _ _
    | ⟨1, _⟩ => exact (dot_S512x768_S768x768_S512x768_1_0_0_1_n_n.lhsIdx_val_of_single rfl _ _).trans hk)
  have er : dot_S512x768_S768x768_S512x768_1_0_0_1_n_n.rhsIdx (ix2 p f) ((contrEquiv1 dot_S512x768_S768x768_S512x768_1_0_0_1_n_n 768 rfl rfl).symm e) = ix2 e f := funext fun a => Fin.ext (by
    match a with
    | ⟨0, _⟩ => exact (dot_S512x768_S768x768_S512x768_1_0_0_1_n_n.rhsIdx_val_of_single rfl _ _).trans hk
    | ⟨1, _⟩ => exact rhs_col _ _)
  rw [el, er]

/-- The bias as a row repeated down the tile: entry `(p, f)` is the bias's entry `f`. -/
theorem bias_at (b : Vec Ideal S768 .f32) (p : Fin 512) (f : Fin 768) :
    broadcastTo S512x768 (shapeCast S1x768 b shapeCasts_S768_S1x768) broadcasts_S1x768_S512x768 (ix2 p f) = b (ix1 f) := by
  refine (broadcastTo_apply _ broadcasts_S1x768_S512x768 (ix2 p f) (ix2 (0 : Fin 1) f) (fun a => ?_)).trans ?_
  · match a with
    | ⟨0, _⟩ => rfl
    | ⟨1, _⟩ => rfl
  · exact shapeCast_apply b shapeCasts_S768_S1x768 (ix2 (0 : Fin 1) f) (ix1 f) (by
      rw [Shape.rowMajor_val_two, Shape.rowMajor_val_one]
      show f.val = 0 * 768 + f.val
      omega)

/-- What the body stores, entry by entry. -/
theorem stored_at (x0 : Vec Ideal S512x768 .f32) (x1 : Vec Ideal S768x768 .bf16) (x2 : Vec Ideal S768 .f32) (p : Fin 512) (f : Fin 768) :
    k0_pay1 (F := Ideal) x0 x1 x2 (ix2 p f) = (∑ e : Fin 768, x0 (ix2 p e) * x1 (ix2 e f)) + x2 (ix1 f) := by
  unfold k0_pay1
  rw [addf_apply, bias_at, product_at]
  simp only [shapeCast_self, truncf_apply]

end Cert.KernelIdeal.Projection0

end
-- ==== Proof.ProjectionSpec.lean ====
/-
  A projection over flattened rows: entry `(r, f)` of the result is row `r` of the input against column `f` of the
  (already transposed) weights, summed over the 768 contracted coordinates, plus the bias at `f`.
-/
import Idealize.ShloMosaic.PureOps.Ideal
import Idealize.ShloMosaic.Lib.ValueIdx

noncomputable section

namespace ProjectionMath

open Idealize.ShloMosaic Idealize.ShloMosaic.ValueIdx

abbrev Rows := (⟨2, ![4096, 768]⟩ : Shape).Idx → EReal
abbrev Square := (⟨2, ![768, 768]⟩ : Shape).Idx → EReal
abbrev Bias := (⟨1, ![768]⟩ : Shape).Idx → EReal

/-- The projected rows. -/
def rowsTimes (x : Rows) (w : Square) (b : Bias) : Rows :=
  fun i => (∑ e : Fin 768, x (ix2 ⟨(i 0).val, (i 0).isLt⟩ e) * w (ix2 e ⟨(i 1).val, (i 1).isLt⟩)) + b (ix1 ⟨(i 1).val, (i 1).isLt⟩)

theorem rowsTimes_at (x : Rows) (w : Square) (b : Bias) (i : (⟨2, ![4096, 768]⟩ : Shape).Idx)
    (r : Fin 4096) (f : Fin 768) (h0 : (i 0).val = r.val) (h1 : (i 1).val = f.val) :
    rowsTimes x w b i = (∑ e : Fin 768, x (ix2 r e) * w (ix2 e f)) + b (ix1 f) := by
  unfold rowsTimes
  rw [show (⟨(i 0).val, (i 0).isLt⟩ : Fin 4096) = r from Fin.ext h0, show (⟨(i 1).val, (i 1).isLt⟩ : Fin 768) = f from Fin.ext h1]

end ProjectionMath

end
-- ==== Proof.ProjectionArray0.lean ====
/-
  Projection 0 as one array.  Grid point `t` of eight handles rows `512 t … 512 t + 511`; its input tile is those rows
  of the input, its weight and bias tiles are the whole arrays, and it writes back those rows of the result.  The eight
  row bands tile the 4096 rows, so after the pipeline every entry `(r, f)` of the result is the row-by-column sum
  over the 768 contracted coordinates plus the bias entry — a function of the arrays as the pipeline finds them.
-/
import proofs.«113033_j45612552684065_2_alg».proof.Proof.Gen.KernelIdeal.Frame
import proofs.«113033_j45612552684065_2_alg».proof.Proof.ProjectionBody0
import proofs.«113033_j45612552684065_2_alg».proof.Proof.ProjectionSpec

set_option maxRecDepth 16384

noncomputable section

namespace Cert.KernelIdeal.Projection0

open Idealize.ShloMosaic Idealize.ShloMosaic.TcCoe Idealize.SL.Sem Idealize.ShloMosaic.ValueIdx Cert.KernelIdeal Cert.KernelIdeal.Gen Idealize.ShloMosaic.Pipeline ProjectionMath

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the input and result tiles are row band `t`, the weight and bias tiles the whole arrays. -/
theorem tiles : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The input tile at point `t` is rows `512 t + p` of the input array. -/
theorem in_tile (c : Dev nD) (t : Fin cfg0.N) (p : Fin 512) (e : Fin 768) (r : Fin 4096) (hr : r.val = t.val * 512 + p.val) :
    iblk0 V c 0 t (ix2 p e) = (V c main_v0 : S4096x768.Idx → EReal) (ix2 r e) := by
  obtain ⟨e0, e1, -⟩ := tiles t
  show (V c main_v0 : S4096x768.Idx → EReal) (((cfg0.win 0).blk t).view.emb (ix2 p e)) = _
  refine congrArg (V c main_v0 : S4096x768.Idx → EReal) (funext fun a => Fin.ext ?_)
  match a with
  | ⟨0, _⟩ => show win0_0.index t (0 : Fin 2) * 512 + 1 * p.val = r.val; omega
  | ⟨1, _⟩ => show win0_0.index t (1 : Fin 2) * 768 + 1 * e.val = e.val; omega

/-- The weight tile is the whole weight array. -/
theorem w_tile (c : Dev nD) (t : Fin cfg0.N) (e f : Fin 768) :
    iblk0 V c 1 t (ix2 e f) = (V c main_v4 : S768x768.Idx → EReal) (ix2 e f) := by
  obtain ⟨-, -, e2, e3, -⟩ := tiles t
  show (V c main_v4 : S768x768.Idx → EReal) (((cfg0.win 1).blk t).view.emb (ix2 e f)) = _
  refine congrArg (V c main_v4 : S768x768.Idx → EReal) (funext fun a => Fin.ext ?_)
  match a with
  | ⟨0, _⟩ => show win0_1.index t (0 : Fin 2) * 768 + 1 * e.val = e.val; omega
  | ⟨1, _⟩ => show win0_1.index t (1 : Fin 2) * 768 + 1 * f.val = f.val; omega

/-- The bias tile is the whole bias. -/
theorem b_tile (c : Dev nD) (t : Fin cfg0.N) (f : Fin 768) :
    iblk0 V c 2 t (ix1 f) = (V c main_arg4 : S768.Idx → EReal) (ix1 f) := by
  obtain ⟨-, -, -, -, e4, -⟩ := tiles t
  show (V c main_arg4 : S768.Idx → EReal) (((cfg0.win 2).blk t).view.emb (ix1 f)) = _
  refine congrArg (V c main_arg4 : S768.Idx → EReal) (funext fun a => Fin.ext ?_)
  match a with
  | ⟨0, _⟩ => show win0_2.index t (0 : Fin 1) * 768 + 1 * f.val = f.val; omega

/-- What point `t` writes back is its row band of the projected rows. -/
theorem flushed_eq (c : Dev nD) (t : Fin cfg0.N) :
    (dat0 V c).flushed 3 t = ((cfg0.win 3).blk t).view.read (Elt Ideal)
      (rowsTimes (V c main_v0) (V c main_v4) (V c main_arg4)) := by
  show (cfg0.win 3).cut (grid0.coords t) ((dat0 V c).after 3 t) = _
  rw [after0_3]
  unfold out0_3
  rw [View.canon_unit_zero hz2]
  simp only [View.ld_unit_zero (S := S512x768) hz2, View.ld_unit_zero (S := S768x768) hz2, View.ld_unit_zero (S := S768) hz1]
  funext y
  obtain ⟨p, f, rfl⟩ : ∃ (p : Fin 512) (f : Fin 768), y = ix2 p f := ⟨y 0, y 1, eq_ix2 y⟩
  obtain ⟨-, -, -, -, -, e5, e6⟩ := tiles t
  have hN : t.val < 8 := by have := t.isLt; have e : cfg0.N = 8 := N_0; omega
  refine (stored_at (iblk0 V c 0 t) (iblk0 V c 1 t) (iblk0 V c 2 t) p f).trans ?_
  refine Eq.trans ?_ (rowsTimes_at (V c main_v0) (V c main_v4) (V c main_arg4) (((cfg0.win 3).blk t).view.emb (ix2 p f))
    ⟨t.val * 512 + p.val, by omega⟩ f ?_ ?_).symm
  · rw [b_tile V c t f]
    refine congrArg (· + _) (Finset.sum_congr rfl fun e _ => ?_)
    rw [in_tile V c t p e ⟨t.val * 512 + p.val, by omega⟩ rfl, w_tile V c t e f]
  · show win0_3.index t (0 : Fin 2) * 512 + 1 * p.val = t.val * 512 + p.val; omega
  · show win0_3.index t (1 : Fin 2) * 768 + 1 * f.val = f.val; omega

theorem mem_band (t : Fin cfg0.N) (i : S4096x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v11).slice (win0_3.rect t)).set ↔ _
  rw [View.set_slice_whole, Rect.mem_set_unit]
  exact Iff.rfl

/-- Every entry lies in some point's row band. -/
theorem covered (i : S4096x768.Idx) : ∃ t : Fin cfg0.N, (cfg0.win 3).flush t = true ∧ i ∈ ((cfg0.win 3).blk t).view.set := by
  have hi0 : (i 0).val < 4096 := idx2_lt0 i
  have hi1 : (i 1).val < 768 := (i 1).isLt
  refine ⟨⟨(i 0).val / 512, by rw [show cfg0.N = 8 from N_0]; omega⟩, flush0_3 _, ?_⟩
  rw [mem_band]
  obtain ⟨-, -, -, -, -, e5, e6⟩ := tiles ⟨(i 0).val / 512, by rw [show cfg0.N = 8 from N_0]; omega⟩
  intro a
  match a with
  | ⟨0, _⟩ => show win0_3.index _ (0 : Fin 2) * 512 ≤ (i 0).val ∧ (i 0).val < win0_3.index _ (0 : Fin 2) * 512 + 512; rw [e5]; show (i 0).val / 512 * 512 ≤ (i 0).val ∧ (i 0).val < (i 0).val / 512 * 512 + 512; omega
  | ⟨1, _⟩ => show win0_3.index _ (1 : Fin 2) * 768 ≤ (i 1).val ∧ (i 1).val < win0_3.index _ (1 : Fin 2) * 768 + 768; rw [e6]; omega

/-- THE RESULT ARRAY after the pipeline, entry by entry, from the three arrays the pipeline reads as it finds them. -/
theorem array_at (c : Dev nD) (x : S4096x768.Idx → EReal) (w : S768x768.Idx → EReal) (b : S768.Idx → EReal)
    (hx : V c main_v0 = x) (hw : V c main_v4 = w) (hb : V c main_arg4 = b) (r : Fin 4096) (f : Fin 768) :
    (dat0 V c).arrAt 3 cfg0.N (ix2 r f) = (∑ e : Fin 768, x (ix2 r e) * w (ix2 e f)) + b (ix1 f) := by
  subst hx hw hb
  rw [(dat0 V c).arrAt_eq_of_cover 3 (rowsTimes (V c main_v0) (V c main_v4) (V c main_arg4)) (fun t _ => flushed_eq V c t) covered]
  exact rowsTimes_at _ _ _ (ix2 r f) r f rfl rfl

/-- The same as one equation of arrays. -/
theorem array_eq (c : Dev nD) (x : Rows) (w : Square) (b : Bias) (hx : V c main_v0 = x) (hw : V c main_v4 = w) (hb : V c main_arg4 = b) :
    (dat0 V c).arrAt 3 cfg0.N = rowsTimes x w b := by
  subst hx hw hb
  exact (dat0 V c).arrAt_eq_of_cover 3 (rowsTimes (V c main_v0) (V c main_v4) (V c main_arg4)) (fun t _ => flushed_eq V c t) covered

end Cert.KernelIdeal.Projection0

end
-- ==== Proof.ProjectionBody1.lean ====
/-
  One grid point of projection 1: the 512 × 768 tile the body stores is, entry by entry, the row of the input tile times
  the column of the (already transposed) weight matrix, summed over the 768 contracted coordinates, plus the bias entry of
  that column.  The product is a matrix product into a zero accumulator; the bias is a [768] vector viewed as one row and
  repeated down the 512 rows.
-/
import proofs.«113033_j45612552684065_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Projection1

open Idealize.ShloMosaic Idealize.ShloMosaic.TcCoe Idealize.SL.Sem Idealize.ShloMosaic.ValueIdx Cert.KernelIdeal Cert.KernelIdeal.Gen

theorem lhs_row (j : S512x768.Idx) (q : dot_S512x768_S768x768_S512x768_1_0_0_1_n_n.contr.Idx) :
    (dot_S512x768_S768x768_S512x768_1_0_0_1_n_n.lhsIdx j q 0).val = (j 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem rhs_col (j : S512x768.Idx) (q : dot_S512x768_S768x768_S512x768_1_0_0_1_n_n.contr.Idx) :
    (dot_S512x768_S768x768_S512x768_1_0_0_1_n_n.rhsIdx j q 1).val = (j 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The tile product into a zero accumulator at `(p, f)`: the sum over `e` of `A (p, e) * B (e, f)`. -/
theorem product_at (A : FVec Ideal S512x768 .bf16) (B : FVec Ideal S768x768 .bf16) (p : Fin 512) (f : Fin 768) :
    matmul dot_S512x768_S768x768_S512x768_1_0_0_1_n_n none A B (constant (F := Ideal) S512x768 .f32 0x00000000#32) (ix2 p f)
      = ∑ e : Fin 768, A (ix2 p e) * B (ix2 e f) := by
  show FloatOps.matmul dot_S512x768_S768x768_S512x768_1_0_0_1_n_n none A B (constant (F := Ideal) S512x768 .f32 0x00000000#32) (ix2 p f) = _
  rw [Ideal.matmul_constant_zero_apply, ← Equiv.sum_comp (contrEquiv1 dot_S512x768_S768x768_S512x768_1_0_0_1_n_n 768 rfl rfl).symm]
  refine Finset.sum_congr rfl fun e _ => ?_
  have hk := contrEquiv1_symm_val dot_S512x768_S768x768_S512x768_1_0_0_1_n_n 768 rfl rfl e
  have el : dot_S512x768_S768x768_S512x768_1_0_0_1_n_n.lhsIdx (ix2 p f) ((contrEquiv1 dot_S512x768_S768x768_S512x768_1_0_0_1_n_n 768 rfl rfl).symm e) = ix2 p e := funext fun a => Fin.ext (by
    match a with
    | ⟨0, _⟩ => exact lhs_row _ _
    | ⟨1, _⟩ => exact (dot_S512x768_S768x768_S512x768_1_0_0_1_n_n.lhsIdx_val_of_single rfl _ _).trans hk)
  have er : dot_S512x768_S768x768_S512x768_1_0_0_1_n_n.rhsIdx (ix2 p f) ((contrEquiv1 dot_S512x768_S768x768_S512x768_1_0_0_1_n_n 768 rfl rfl).symm e) = ix2 e f := funext fun a => Fin.ext (by
    match a with
    | ⟨0, _⟩ => exact (dot_S512x768_S768x768_S512x768_1_0_0_1_n_n.rhsIdx_val_of_single rfl _ _).trans hk
    | ⟨1, _⟩ => exact rhs_col _ _)
  rw [el, er]

/-- The bias as a row repeated down the tile: entry `(p, f)` is the bias's entry `f`. -/
theorem bias_at (b : Vec Ideal S768 .f32) (p : Fin 512) (f : Fin 768) :
    broadcastTo S512x768 (shapeCast S1x768 b shapeCasts_S768_S1x768) broadcasts_S1x768_S512x768 (ix2 p f) = b (ix1 f) := by
  refine (broadcastTo_apply _ broadcasts_S1x768_S512x768 (ix2 p f) (ix2 (0 : Fin 1) f) (fun a => ?_)).trans ?_
  · match a with
    | ⟨0, _⟩ => rfl
    | ⟨1, _⟩ => rfl
  · exact shapeCast_apply b shapeCasts_S768_S1x768 (ix2 (0 : Fin 1) f) (ix1 f) (by
      rw [Shape.rowMajor_val_two, Shape.rowMajor_val_one]
      show f.val = 0 * 768 + f.val
      omega)

/-- What the body stores, entry by entry. -/
theorem stored_at (x0 : Vec Ideal S512x768 .f32) (x1 : Vec Ideal S768x768 .bf16) (x2 : Vec Ideal S768 .f32) (p : Fin 512) (f : Fin 768) :
    k1_pay1 (F := Ideal) x0 x1 x2 (ix2 p f) = (∑ e : Fin 768, x0 (ix2 p e) * x1 (ix2 e f)) + x2 (ix1 f) := by
  unfold k1_pay1
  rw [addf_apply, bias_at, product_at]
  simp only [shapeCast_self, truncf_apply]

end Cert.KernelIdeal.Projection1

end
-- ==== Proof.ProjectionArray1.lean ====
/-
  Projection 1 as one array.  Grid point `t` of eight handles rows `512 t … 512 t + 511`; its input tile is those rows
  of the input, its weight and bias tiles are the whole arrays, and it writes back those rows of the result.  The eight
  row bands tile the 4096 rows, so after the pipeline every entry `(r, f)` of the result is the row-by-column sum
  over the 768 contracted coordinates plus the bias entry — a function of the arrays as the pipeline finds them.
-/
import proofs.«113033_j45612552684065_2_alg».proof.Proof.Gen.KernelIdeal.Frame
import proofs.«113033_j45612552684065_2_alg».proof.Proof.ProjectionBody1
import proofs.«113033_j45612552684065_2_alg».proof.Proof.ProjectionSpec

set_option maxRecDepth 16384

noncomputable section

namespace Cert.KernelIdeal.Projection1

open Idealize.ShloMosaic Idealize.ShloMosaic.TcCoe Idealize.SL.Sem Idealize.ShloMosaic.ValueIdx Cert.KernelIdeal Cert.KernelIdeal.Gen Idealize.ShloMosaic.Pipeline ProjectionMath

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the input and result tiles are row band `t`, the weight and bias tiles the whole arrays. -/
theorem tiles : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- The input tile at point `t` is rows `512 t + p` of the input array. -/
theorem in_tile (c : Dev nD) (t : Fin cfg1.N) (p : Fin 512) (e : Fin 768) (r : Fin 4096) (hr : r.val = t.val * 512 + p.val) :
    iblk1 V c 0 t (ix2 p e) = (V c main_v1 : S4096x768.Idx → EReal) (ix2 r e) := by
  obtain ⟨e0, e1, -⟩ := tiles t
  show (V c main_v1 : S4096x768.Idx → EReal) (((cfg1.win 0).blk t).view.emb (ix2 p e)) = _
  refine congrArg (V c main_v1 : S4096x768.Idx → EReal) (funext fun a => Fin.ext ?_)
  match a with
  | ⟨0, _⟩ => show win1_0.index t (0 : Fin 2) * 512 + 1 * p.val = r.val; omega
  | ⟨1, _⟩ => show win1_0.index t (1 : Fin 2) * 768 + 1 * e.val = e.val; omega

/-- The weight tile is the whole weight array. -/
theorem w_tile (c : Dev nD) (t : Fin cfg1.N) (e f : Fin 768) :
    iblk1 V c 1 t (ix2 e f) = (V c main_v6 : S768x768.Idx → EReal) (ix2 e f) := by
  obtain ⟨-, -, e2, e3, -⟩ := tiles t
  show (V c main_v6 : S768x768.Idx → EReal) (((cfg1.win 1).blk t).view.emb (ix2 e f)) = _
  refine congrArg (V c main_v6 : S768x768.Idx → EReal) (funext fun a => Fin.ext ?_)
  match a with
  | ⟨0, _⟩ => show win1_1.index t (0 : Fin 2) * 768 + 1 * e.val = e.val; omega
  | ⟨1, _⟩ => show win1_1.index t (1 : Fin 2) * 768 + 1 * f.val = f.val; omega

/-- The bias tile is the whole bias. -/
theorem b_tile (c : Dev nD) (t : Fin cfg1.N) (f : Fin 768) :
    iblk1 V c 2 t (ix1 f) = (V c main_arg6 : S768.Idx → EReal) (ix1 f) := by
  obtain ⟨-, -, -, -, e4, -⟩ := tiles t
  show (V c main_arg6 : S768.Idx → EReal) (((cfg1.win 2).blk t).view.emb (ix1 f)) = _
  refine congrArg (V c main_arg6 : S768.Idx → EReal) (funext fun a => Fin.ext ?_)
  match a with
  | ⟨0, _⟩ => show win1_2.index t (0 : Fin 1) * 768 + 1 * f.val = f.val; omega

/-- What point `t` writes back is its row band of the projected rows. -/
theorem flushed_eq (c : Dev nD) (t : Fin cfg1.N) :
    (dat1 V c).flushed 3 t = ((cfg1.win 3).blk t).view.read (Elt Ideal)
      (rowsTimes (V c main_v1) (V c main_v6) (V c main_arg6)) := by
  show (cfg1.win 3).cut (grid1.coords t) ((dat1 V c).after 3 t) = _
  rw [after1_3]
  unfold out1_3
  rw [View.canon_unit_zero hz2]
  simp only [View.ld_unit_zero (S := S512x768) hz2, View.ld_unit_zero (S := S768x768) hz2, View.ld_unit_zero (S := S768) hz1]
  funext y
  obtain ⟨p, f, rfl⟩ : ∃ (p : Fin 512) (f : Fin 768), y = ix2 p f := ⟨y 0, y 1, eq_ix2 y⟩
  obtain ⟨-, -, -, -, -, e5, e6⟩ := tiles t
  have hN : t.val < 8 := by have := t.isLt; have e : cfg1.N = 8 := N_1; omega
  refine (stored_at (iblk1 V c 0 t) (iblk1 V c 1 t) (iblk1 V c 2 t) p f).trans ?_
  refine Eq.trans ?_ (rowsTimes_at (V c main_v1) (V c main_v6) (V c main_arg6) (((cfg1.win 3).blk t).view.emb (ix2 p f))
    ⟨t.val * 512 + p.val, by omega⟩ f ?_ ?_).symm
  · rw [b_tile V c t f]
    refine congrArg (· + _) (Finset.sum_congr rfl fun e _ => ?_)
    rw [in_tile V c t p e ⟨t.val * 512 + p.val, by omega⟩ rfl, w_tile V c t e f]
  · show win1_3.index t (0 : Fin 2) * 512 + 1 * p.val = t.val * 512 + p.val; omega
  · show win1_3.index t (1 : Fin 2) * 768 + 1 * f.val = f.val; omega

theorem mem_band (t : Fin cfg1.N) (i : S4096x768.Idx) :
    i ∈ ((cfg1.win 3).blk t).view.set ↔ ∀ a : Fin 2, win1_3.index t a * S512x768.size a ≤ (i a).val ∧ (i a).val < win1_3.index t a * S512x768.size a + S512x768.size a := by
  show i ∈ ((View.whole main_v12).slice (win1_3.rect t)).set ↔ _
  rw [View.set_slice_whole, Rect.mem_set_unit]
  exact Iff.rfl

/-- Every entry lies in some point's row band. -/
theorem covered (i : S4096x768.Idx) : ∃ t : Fin cfg1.N, (cfg1.win 3).flush t = true ∧ i ∈ ((cfg1.win 3).blk t).view.set := by
  have hi0 : (i 0).val < 4096 := idx2_lt0 i
  have hi1 : (i 1).val < 768 := (i 1).isLt
  refine ⟨⟨(i 0).val / 512, by rw [show cfg1.N = 8 from N_1]; omega⟩, flush1_3 _, ?_⟩
  rw [mem_band]
  obtain ⟨-, -, -, -, -, e5, e6⟩ := tiles ⟨(i 0).val / 512, by rw [show cfg1.N = 8 from N_1]; omega⟩
  intro a
  match a with
  | ⟨0, _⟩ => show win1_3.index _ (0 : Fin 2) * 512 ≤ (i 0).val ∧ (i 0).val < win1_3.index _ (0 : Fin 2) * 512 + 512; rw [e5]; show (i 0).val / 512 * 512 ≤ (i 0).val ∧ (i 0).val < (i 0).val / 512 * 512 + 512; omega
  | ⟨1, _⟩ => show win1_3.index _ (1 : Fin 2) * 768 ≤ (i 1).val ∧ (i 1).val < win1_3.index _ (1 : Fin 2) * 768 + 768; rw [e6]; omega

/-- THE RESULT ARRAY after the pipeline, entry by entry, from the three arrays the pipeline reads as it finds them. -/
theorem array_at (c : Dev nD) (x : S4096x768.Idx → EReal) (w : S768x768.Idx → EReal) (b : S768.Idx → EReal)
    (hx : V c main_v1 = x) (hw : V c main_v6 = w) (hb : V c main_arg6 = b) (r : Fin 4096) (f : Fin 768) :
    (dat1 V c).arrAt 3 cfg1.N (ix2 r f) = (∑ e : Fin 768, x (ix2 r e) * w (ix2 e f)) + b (ix1 f) := by
  subst hx hw hb
  rw [(dat1 V c).arrAt_eq_of_cover 3 (rowsTimes (V c main_v1) (V c main_v6) (V c main_arg6)) (fun t _ => flushed_eq V c t) covered]
  exact rowsTimes_at _ _ _ (ix2 r f) r f rfl rfl

/-- The same as one equation of arrays. -/
theorem array_eq (c : Dev nD) (x : Rows) (w : Square) (b : Bias) (hx : V c main_v1 = x) (hw : V c main_v6 = w) (hb : V c main_arg6 = b) :
    (dat1 V c).arrAt 3 cfg1.N = rowsTimes x w b := by
  subst hx hw hb
  exact (dat1 V c).arrAt_eq_of_cover 3 (rowsTimes (V c main_v1) (V c main_v6) (V c main_arg6)) (fun t _ => flushed_eq V c t) covered

end Cert.KernelIdeal.Projection1

end
-- ==== Proof.ProjectionBody2.lean ====
/-
  One grid point of projection 2: the 512 × 768 tile the body stores is, entry by entry, the row of the input tile times
  the column of the (already transposed) weight matrix, summed over the 768 contracted coordinates, plus the bias entry of
  that column.  The product is a matrix product into a zero accumulator; the bias is a [768] vector viewed as one row and
  repeated down the 512 rows.
-/
import proofs.«113033_j45612552684065_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Projection2

open Idealize.ShloMosaic Idealize.ShloMosaic.TcCoe Idealize.SL.Sem Idealize.ShloMosaic.ValueIdx Cert.KernelIdeal Cert.KernelIdeal.Gen

theorem lhs_row (j : S512x768.Idx) (q : dot_S512x768_S768x768_S512x768_1_0_0_1_n_n.contr.Idx) :
    (dot_S512x768_S768x768_S512x768_1_0_0_1_n_n.lhsIdx j q 0).val = (j 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem rhs_col (j : S512x768.Idx) (q : dot_S512x768_S768x768_S512x768_1_0_0_1_n_n.contr.Idx) :
    (dot_S512x768_S768x768_S512x768_1_0_0_1_n_n.rhsIdx j q 1).val = (j 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The tile product into a zero accumulator at `(p, f)`: the sum over `e` of `A (p, e) * B (e, f)`. -/
theorem product_at (A : FVec Ideal S512x768 .bf16) (B : FVec Ideal S768x768 .bf16) (p : Fin 512) (f : Fin 768) :
    matmul dot_S512x768_S768x768_S512x768_1_0_0_1_n_n none A B (constant (F := Ideal) S512x768 .f32 0x00000000#32) (ix2 p f)
      = ∑ e : Fin 768, A (ix2 p e) * B (ix2 e f) := by
  show FloatOps.matmul dot_S512x768_S768x768_S512x768_1_0_0_1_n_n none A B (constant (F := Ideal) S512x768 .f32 0x00000000#32) (ix2 p f) = _
  rw [Ideal.matmul_constant_zero_apply, ← Equiv.sum_comp (contrEquiv1 dot_S512x768_S768x768_S512x768_1_0_0_1_n_n 768 rfl rfl).symm]
  refine Finset.sum_congr rfl fun e _ => ?_
  have hk := contrEquiv1_symm_val dot_S512x768_S768x768_S512x768_1_0_0_1_n_n 768 rfl rfl e
  have el : dot_S512x768_S768x768_S512x768_1_0_0_1_n_n.lhsIdx (ix2 p f) ((contrEquiv1 dot_S512x768_S768x768_S512x768_1_0_0_1_n_n 768 rfl rfl).symm e) = ix2 p e := funext fun a => Fin.ext (by
    match a with
    | ⟨0, _⟩ => exact lhs_row _ _
    | ⟨1, _⟩ => exact (dot_S512x768_S768x768_S512x768_1_0_0_1_n_n.lhsIdx_val_of_single rfl _ _).trans hk)
  have er : dot_S512x768_S768x768_S512x768_1_0_0_1_n_n.rhsIdx (ix2 p f) ((contrEquiv1 dot_S512x768_S768x768_S512x768_1_0_0_1_n_n 768 rfl rfl).symm e) = ix2 e f := funext fun a => Fin.ext (by
    match a with
    | ⟨0, _⟩ => exact (dot_S512x768_S768x768_S512x768_1_0_0_1_n_n.rhsIdx_val_of_single rfl _ _).trans hk
    | ⟨1, _⟩ => exact rhs_col _ _)
  rw [el, er]

/-- The bias as a row repeated down the tile: entry `(p, f)` is the bias's entry `f`. -/
theorem bias_at (b : Vec Ideal S768 .f32) (p : Fin 512) (f : Fin 768) :
    broadcastTo S512x768 (shapeCast S1x768 b shapeCasts_S768_S1x768) broadcasts_S1x768_S512x768 (ix2 p f) = b (ix1 f) := by
  refine (broadcastTo_apply _ broadcasts_S1x768_S512x768 (ix2 p f) (ix2 (0 : Fin 1) f) (fun a => ?_)).trans ?_
  · match a with
    | ⟨0, _⟩ => rfl
    | ⟨1, _⟩ => rfl
  · exact shapeCast_apply b shapeCasts_S768_S1x768 (ix2 (0 : Fin 1) f) (ix1 f) (by
      rw [Shape.rowMajor_val_two, Shape.rowMajor_val_one]
      show f.val = 0 * 768 + f.val
      omega)

/-- What the body stores, entry by entry. -/
theorem stored_at (x0 : Vec Ideal S512x768 .f32) (x1 : Vec Ideal S768x768 .bf16) (x2 : Vec Ideal S768 .f32) (p : Fin 512) (f : Fin 768) :
    k2_pay1 (F := Ideal) x0 x1 x2 (ix2 p f) = (∑ e : Fin 768, x0 (ix2 p e) * x1 (ix2 e f)) + x2 (ix1 f) := by
  unfold k2_pay1
  rw [addf_apply, bias_at, product_at]
  simp only [shapeCast_self, truncf_apply]

end Cert.KernelIdeal.Projection2

end
-- ==== Proof.ProjectionArray2.lean ====
/-
  Projection 2 as one array.  Grid point `t` of eight handles rows `512 t … 512 t + 511`; its input tile is those rows
  of the input, its weight and bias tiles are the whole arrays, and it writes back those rows of the result.  The eight
  row bands tile the 4096 rows, so after the pipeline every entry `(r, f)` of the result is the row-by-column sum
  over the 768 contracted coordinates plus the bias entry — a function of the arrays as the pipeline finds them.
-/
import proofs.«113033_j45612552684065_2_alg».proof.Proof.Gen.KernelIdeal.Frame
import proofs.«113033_j45612552684065_2_alg».proof.Proof.ProjectionBody2
import proofs.«113033_j45612552684065_2_alg».proof.Proof.ProjectionSpec

set_option maxRecDepth 16384

noncomputable section

namespace Cert.KernelIdeal.Projection2

open Idealize.ShloMosaic Idealize.ShloMosaic.TcCoe Idealize.SL.Sem Idealize.ShloMosaic.ValueIdx Cert.KernelIdeal Cert.KernelIdeal.Gen Idealize.ShloMosaic.Pipeline ProjectionMath

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the input and result tiles are row band `t`, the weight and bias tiles the whole arrays. -/
theorem tiles : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- The input tile at point `t` is rows `512 t + p` of the input array. -/
theorem in_tile (c : Dev nD) (t : Fin cfg2.N) (p : Fin 512) (e : Fin 768) (r : Fin 4096) (hr : r.val = t.val * 512 + p.val) :
    iblk2 V c 0 t (ix2 p e) = (V c main_v2 : S4096x768.Idx → EReal) (ix2 r e) := by
  obtain ⟨e0, e1, -⟩ := tiles t
  show (V c main_v2 : S4096x768.Idx → EReal) (((cfg2.win 0).blk t).view.emb (ix2 p e)) = _
  refine congrArg (V c main_v2 : S4096x768.Idx → EReal) (funext fun a => Fin.ext ?_)
  match a with
  | ⟨0, _⟩ => show win2_0.index t (0 : Fin 2) * 512 + 1 * p.val = r.val; omega
  | ⟨1, _⟩ => show win2_0.index t (1 : Fin 2) * 768 + 1 * e.val = e.val; omega

/-- The weight tile is the whole weight array. -/
theorem w_tile (c : Dev nD) (t : Fin cfg2.N) (e f : Fin 768) :
    iblk2 V c 1 t (ix2 e f) = (V c main_v8 : S768x768.Idx → EReal) (ix2 e f) := by
  obtain ⟨-, -, e2, e3, -⟩ := tiles t
  show (V c main_v8 : S768x768.Idx → EReal) (((cfg2.win 1).blk t).view.emb (ix2 e f)) = _
  refine congrArg (V c main_v8 : S768x768.Idx → EReal) (funext fun a => Fin.ext ?_)
  match a with
  | ⟨0, _⟩ => show win2_1.index t (0 : Fin 2) * 768 + 1 * e.val = e.val; omega
  | ⟨1, _⟩ => show win2_1.index t (1 : Fin 2) * 768 + 1 * f.val = f.val; omega

/-- The bias tile is the whole bias. -/
theorem b_tile (c : Dev nD) (t : Fin cfg2.N) (f : Fin 768) :
    iblk2 V c 2 t (ix1 f) = (V c main_arg8 : S768.Idx → EReal) (ix1 f) := by
  obtain ⟨-, -, -, -, e4, -⟩ := tiles t
  show (V c main_arg8 : S768.Idx → EReal) (((cfg2.win 2).blk t).view.emb (ix1 f)) = _
  refine congrArg (V c main_arg8 : S768.Idx → EReal) (funext fun a => Fin.ext ?_)
  match a with
  | ⟨0, _⟩ => show win2_2.index t (0 : Fin 1) * 768 + 1 * f.val = f.val; omega

/-- What point `t` writes back is its row band of the projected rows. -/
theorem flushed_eq (c : Dev nD) (t : Fin cfg2.N) :
    (dat2 V c).flushed 3 t = ((cfg2.win 3).blk t).view.read (Elt Ideal)
      (rowsTimes (V c main_v2) (V c main_v8) (V c main_arg8)) := by
  show (cfg2.win 3).cut (grid2.coords t) ((dat2 V c).after 3 t) = _
  rw [after2_3]
  unfold out2_3
  rw [View.canon_unit_zero hz2]
  simp only [View.ld_unit_zero (S := S512x768) hz2, View.ld_unit_zero (S := S768x768) hz2, View.ld_unit_zero (S := S768) hz1]
  funext y
  obtain ⟨p, f, rfl⟩ : ∃ (p : Fin 512) (f : Fin 768), y = ix2 p f := ⟨y 0, y 1, eq_ix2 y⟩
  obtain ⟨-, -, -, -, -, e5, e6⟩ := tiles t
  have hN : t.val < 8 := by have := t.isLt; have e : cfg2.N = 8 := N_2; omega
  refine (stored_at (iblk2 V c 0 t) (iblk2 V c 1 t) (iblk2 V c 2 t) p f).trans ?_
  refine Eq.trans ?_ (rowsTimes_at (V c main_v2) (V c main_v8) (V c main_arg8) (((cfg2.win 3).blk t).view.emb (ix2 p f))
    ⟨t.val * 512 + p.val, by omega⟩ f ?_ ?_).symm
  · rw [b_tile V c t f]
    refine congrArg (· + _) (Finset.sum_congr rfl fun e _ => ?_)
    rw [in_tile V c t p e ⟨t.val * 512 + p.val, by omega⟩ rfl, w_tile V c t e f]
  · show win2_3.index t (0 : Fin 2) * 512 + 1 * p.val = t.val * 512 + p.val; omega
  · show win2_3.index t (1 : Fin 2) * 768 + 1 * f.val = f.val; omega

theorem mem_band (t : Fin cfg2.N) (i : S4096x768.Idx) :
    i ∈ ((cfg2.win 3).blk t).view.set ↔ ∀ a : Fin 2, win2_3.index t a * S512x768.size a ≤ (i a).val ∧ (i a).val < win2_3.index t a * S512x768.size a + S512x768.size a := by
  show i ∈ ((View.whole main_v13).slice (win2_3.rect t)).set ↔ _
  rw [View.set_slice_whole, Rect.mem_set_unit]
  exact Iff.rfl

/-- Every entry lies in some point's row band. -/
theorem covered (i : S4096x768.Idx) : ∃ t : Fin cfg2.N, (cfg2.win 3).flush t = true ∧ i ∈ ((cfg2.win 3).blk t).view.set := by
  have hi0 : (i 0).val < 4096 := idx2_lt0 i
  have hi1 : (i 1).val < 768 := (i 1).isLt
  refine ⟨⟨(i 0).val / 512, by rw [show cfg2.N = 8 from N_2]; omega⟩, flush2_3 _, ?_⟩
  rw [mem_band]
  obtain ⟨-, -, -, -, -, e5, e6⟩ := tiles ⟨(i 0).val / 512, by rw [show cfg2.N = 8 from N_2]; omega⟩
  intro a
  match a with
  | ⟨0, _⟩ => show win2_3.index _ (0 : Fin 2) * 512 ≤ (i 0).val ∧ (i 0).val < win2_3.index _ (0 : Fin 2) * 512 + 512; rw [e5]; show (i 0).val / 512 * 512 ≤ (i 0).val ∧ (i 0).val < (i 0).val / 512 * 512 + 512; omega
  | ⟨1, _⟩ => show win2_3.index _ (1 : Fin 2) * 768 ≤ (i 1).val ∧ (i 1).val < win2_3.index _ (1 : Fin 2) * 768 + 768; rw [e6]; omega

/-- THE RESULT ARRAY after the pipeline, entry by entry, from the three arrays the pipeline reads as it finds them. -/
theorem array_at (c : Dev nD) (x : S4096x768.Idx → EReal) (w : S768x768.Idx → EReal) (b : S768.Idx → EReal)
    (hx : V c main_v2 = x) (hw : V c main_v8 = w) (hb : V c main_arg8 = b) (r : Fin 4096) (f : Fin 768) :
    (dat2 V c).arrAt 3 cfg2.N (ix2 r f) = (∑ e : Fin 768, x (ix2 r e) * w (ix2 e f)) + b (ix1 f) := by
  subst hx hw hb
  rw [(dat2 V c).arrAt_eq_of_cover 3 (rowsTimes (V c main_v2) (V c main_v8) (V c main_arg8)) (fun t _ => flushed_eq V c t) covered]
  exact rowsTimes_at _ _ _ (ix2 r f) r f rfl rfl

/-- The same as one equation of arrays. -/
theorem array_eq (c : Dev nD) (x : Rows) (w : Square) (b : Bias) (hx : V c main_v2 = x) (hw : V c main_v8 = w) (hb : V c main_arg8 = b) :
    (dat2 V c).arrAt 3 cfg2.N = rowsTimes x w b := by
  subst hx hw hb
  exact (dat2 V c).arrAt_eq_of_cover 3 (rowsTimes (V c main_v2) (V c main_v8) (V c main_arg8)) (fun t _ => flushed_eq V c t) covered

end Cert.KernelIdeal.Projection2

end
-- ==== Proof.ProjectionBody4.lean ====
/-
  One grid point of projection 4: the 512 × 768 tile the body stores is, entry by entry, the row of the input tile times
  the column of the (already transposed) weight matrix, summed over the 768 contracted coordinates, plus the bias entry of
  that column.  The product is a matrix product into a zero accumulator; the bias is a [768] vector viewed as one row and
  repeated down the 512 rows.
-/
import proofs.«113033_j45612552684065_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Projection4

open Idealize.ShloMosaic Idealize.ShloMosaic.TcCoe Idealize.SL.Sem Idealize.ShloMosaic.ValueIdx Cert.KernelIdeal Cert.KernelIdeal.Gen

theorem lhs_row (j : S512x768.Idx) (q : dot_S512x768_S768x768_S512x768_1_0_0_1_n_n.contr.Idx) :
    (dot_S512x768_S768x768_S512x768_1_0_0_1_n_n.lhsIdx j q 0).val = (j 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem rhs_col (j : S512x768.Idx) (q : dot_S512x768_S768x768_S512x768_1_0_0_1_n_n.contr.Idx) :
    (dot_S512x768_S768x768_S512x768_1_0_0_1_n_n.rhsIdx j q 1).val = (j 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The tile product into a zero accumulator at `(p, f)`: the sum over `e` of `A (p, e) * B (e, f)`. -/
theorem product_at (A : FVec Ideal S512x768 .bf16) (B : FVec Ideal S768x768 .bf16) (p : Fin 512) (f : Fin 768) :
    matmul dot_S512x768_S768x768_S512x768_1_0_0_1_n_n none A B (constant (F := Ideal) S512x768 .f32 0x00000000#32) (ix2 p f)
      = ∑ e : Fin 768, A (ix2 p e) * B (ix2 e f) := by
  show FloatOps.matmul dot_S512x768_S768x768_S512x768_1_0_0_1_n_n none A B (constant (F := Ideal) S512x768 .f32 0x00000000#32) (ix2 p f) = _
  rw [Ideal.matmul_constant_zero_apply, ← Equiv.sum_comp (contrEquiv1 dot_S512x768_S768x768_S512x768_1_0_0_1_n_n 768 rfl rfl).symm]
  refine Finset.sum_congr rfl fun e _ => ?_
  have hk := contrEquiv1_symm_val dot_S512x768_S768x768_S512x768_1_0_0_1_n_n 768 rfl rfl e
  have el : dot_S512x768_S768x768_S512x768_1_0_0_1_n_n.lhsIdx (ix2 p f) ((contrEquiv1 dot_S512x768_S768x768_S512x768_1_0_0_1_n_n 768 rfl rfl).symm e) = ix2 p e := funext fun a => Fin.ext (by
    match a with
    | ⟨0, _⟩ => exact lhs_row _ _
    | ⟨1, _⟩ => exact (dot_S512x768_S768x768_S512x768_1_0_0_1_n_n.lhsIdx_val_of_single rfl _ _).trans hk)
  have er : dot_S512x768_S768x768_S512x768_1_0_0_1_n_n.rhsIdx (ix2 p f) ((contrEquiv1 dot_S512x768_S768x768_S512x768_1_0_0_1_n_n 768 rfl rfl).symm e) = ix2 e f := funext fun a => Fin.ext (by
    match a with
    | ⟨0, _⟩ => exact (dot_S512x768_S768x768_S512x768_1_0_0_1_n_n.rhsIdx_val_of_single rfl _ _).trans hk
    | ⟨1, _⟩ => exact rhs_col _ _)
  rw [el, er]

/-- The bias as a row repeated down the tile: entry `(p, f)` is the bias's entry `f`. -/
theorem bias_at (b : Vec Ideal S768 .f32) (p : Fin 512) (f : Fin 768) :
    broadcastTo S512x768 (shapeCast S1x768 b shapeCasts_S768_S1x768) broadcasts_S1x768_S512x768 (ix2 p f) = b (ix1 f) := by
  refine (broadcastTo_apply _ broadcasts_S1x768_S512x768 (ix2 p f) (ix2 (0 : Fin 1) f) (fun a => ?_)).trans ?_
  · match a with
    | ⟨0, _⟩ => rfl
    | ⟨1, _⟩ => rfl
  · exact shapeCast_apply b shapeCasts_S768_S1x768 (ix2 (0 : Fin 1) f) (ix1 f) (by
      rw [Shape.rowMajor_val_two, Shape.rowMajor_val_one]
      show f.val = 0 * 768 + f.val
      omega)

/-- What the body stores, entry by entry. -/
theorem stored_at (x0 : Vec Ideal S512x768 .f32) (x1 : Vec Ideal S768x768 .bf16) (x2 : Vec Ideal S768 .f32) (p : Fin 512) (f : Fin 768) :
    k4_pay1 (F := Ideal) x0 x1 x2 (ix2 p f) = (∑ e : Fin 768, x0 (ix2 p e) * x1 (ix2 e f)) + x2 (ix1 f) := by
  unfold k4_pay1
  rw [addf_apply, bias_at, product_at]
  simp only [shapeCast_self, truncf_apply]

end Cert.KernelIdeal.Projection4

end
-- ==== Proof.ProjectionArray4.lean ====
/-
  Projection 4 as one array.  Grid point `t` of eight handles rows `512 t … 512 t + 511`; its input tile is those rows
  of the input, its weight and bias tiles are the whole arrays, and it writes back those rows of the result.  The eight
  row bands tile the 4096 rows, so after the pipeline every entry `(r, f)` of the result is the row-by-column sum
  over the 768 contracted coordinates plus the bias entry — a function of the arrays as the pipeline finds them.
-/
import proofs.«113033_j45612552684065_2_alg».proof.Proof.Gen.KernelIdeal.Frame
import proofs.«113033_j45612552684065_2_alg».proof.Proof.ProjectionBody4
import proofs.«113033_j45612552684065_2_alg».proof.Proof.ProjectionSpec

set_option maxRecDepth 16384

noncomputable section

namespace Cert.KernelIdeal.Projection4

open Idealize.ShloMosaic Idealize.ShloMosaic.TcCoe Idealize.SL.Sem Idealize.ShloMosaic.ValueIdx Cert.KernelIdeal Cert.KernelIdeal.Gen Idealize.ShloMosaic.Pipeline ProjectionMath

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the input and result tiles are row band `t`, the weight and bias tiles the whole arrays. -/
theorem tiles : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0 :=
  (by decide +kernel : ∀ t : Fin grid4.N, _)

/-- The input tile at point `t` is rows `512 t + p` of the input array. -/
theorem in_tile (c : Dev nD) (t : Fin cfg4.N) (p : Fin 512) (e : Fin 768) (r : Fin 4096) (hr : r.val = t.val * 512 + p.val) :
    iblk4 V c 0 t (ix2 p e) = (V c main_v14_0 : S4096x768.Idx → EReal) (ix2 r e) := by
  obtain ⟨e0, e1, -⟩ := tiles t
  show (V c main_v14_0 : S4096x768.Idx → EReal) (((cfg4.win 0).blk t).view.emb (ix2 p e)) = _
  refine congrArg (V c main_v14_0 : S4096x768.Idx → EReal) (funext fun a => Fin.ext ?_)
  match a with
  | ⟨0, _⟩ => show win4_0.index t (0 : Fin 2) * 512 + 1 * p.val = r.val; omega
  | ⟨1, _⟩ => show win4_0.index t (1 : Fin 2) * 768 + 1 * e.val = e.val; omega

/-- The weight tile is the whole weight array. -/
theorem w_tile (c : Dev nD) (t : Fin cfg4.N) (e f : Fin 768) :
    iblk4 V c 1 t (ix2 e f) = (V c main_v10 : S768x768.Idx → EReal) (ix2 e f) := by
  obtain ⟨-, -, e2, e3, -⟩ := tiles t
  show (V c main_v10 : S768x768.Idx → EReal) (((cfg4.win 1).blk t).view.emb (ix2 e f)) = _
  refine congrArg (V c main_v10 : S768x768.Idx → EReal) (funext fun a => Fin.ext ?_)
  match a with
  | ⟨0, _⟩ => show win4_1.index t (0 : Fin 2) * 768 + 1 * e.val = e.val; omega
  | ⟨1, _⟩ => show win4_1.index t (1 : Fin 2) * 768 + 1 * f.val = f.val; omega

/-- The bias tile is the whole bias. -/
theorem b_tile (c : Dev nD) (t : Fin cfg4.N) (f : Fin 768) :
    iblk4 V c 2 t (ix1 f) = (V c main_arg10 : S768.Idx → EReal) (ix1 f) := by
  obtain ⟨-, -, -, -, e4, -⟩ := tiles t
  show (V c main_arg10 : S768.Idx → EReal) (((cfg4.win 2).blk t).view.emb (ix1 f)) = _
  refine congrArg (V c main_arg10 : S768.Idx → EReal) (funext fun a => Fin.ext ?_)
  match a with
  | ⟨0, _⟩ => show win4_2.index t (0 : Fin 1) * 768 + 1 * f.val = f.val; omega

/-- What point `t` writes back is its row band of the projected rows. -/
theorem flushed_eq (c : Dev nD) (t : Fin cfg4.N) :
    (dat4 V c).flushed 3 t = ((cfg4.win 3).blk t).view.read (Elt Ideal)
      (rowsTimes (V c main_v14_0) (V c main_v10) (V c main_arg10)) := by
  show (cfg4.win 3).cut (grid4.coords t) ((dat4 V c).after 3 t) = _
  rw [after4_3]
  unfold out4_3
  rw [View.canon_unit_zero hz2]
  simp only [View.ld_unit_zero (S := S512x768) hz2, View.ld_unit_zero (S := S768x768) hz2, View.ld_unit_zero (S := S768) hz1]
  funext y
  obtain ⟨p, f, rfl⟩ : ∃ (p : Fin 512) (f : Fin 768), y = ix2 p f := ⟨y 0, y 1, eq_ix2 y⟩
  obtain ⟨-, -, -, -, -, e5, e6⟩ := tiles t
  have hN : t.val < 8 := by have := t.isLt; have e : cfg4.N = 8 := N_4; omega
  refine (stored_at (iblk4 V c 0 t) (iblk4 V c 1 t) (iblk4 V c 2 t) p f).trans ?_
  refine Eq.trans ?_ (rowsTimes_at (V c main_v14_0) (V c main_v10) (V c main_arg10) (((cfg4.win 3).blk t).view.emb (ix2 p f))
    ⟨t.val * 512 + p.val, by omega⟩ f ?_ ?_).symm
  · rw [b_tile V c t f]
    refine congrArg (· + _) (Finset.sum_congr rfl fun e _ => ?_)
    rw [in_tile V c t p e ⟨t.val * 512 + p.val, by omega⟩ rfl, w_tile V c t e f]
  · show win4_3.index t (0 : Fin 2) * 512 + 1 * p.val = t.val * 512 + p.val; omega
  · show win4_3.index t (1 : Fin 2) * 768 + 1 * f.val = f.val; omega

theorem mem_band (t : Fin cfg4.N) (i : S4096x768.Idx) :
    i ∈ ((cfg4.win 3).blk t).view.set ↔ ∀ a : Fin 2, win4_3.index t a * S512x768.size a ≤ (i a).val ∧ (i a).val < win4_3.index t a * S512x768.size a + S512x768.size a := by
  show i ∈ ((View.whole main_v15).slice (win4_3.rect t)).set ↔ _
  rw [View.set_slice_whole, Rect.mem_set_unit]
  exact Iff.rfl

/-- Every entry lies in some point's row band. -/
theorem covered (i : S4096x768.Idx) : ∃ t : Fin cfg4.N, (cfg4.win 3).flush t = true ∧ i ∈ ((cfg4.win 3).blk t).view.set := by
  have hi0 : (i 0).val < 4096 := idx2_lt0 i
  have hi1 : (i 1).val < 768 := (i 1).isLt
  refine ⟨⟨(i 0).val / 512, by rw [show cfg4.N = 8 from N_4]; omega⟩, flush4_3 _, ?_⟩
  rw [mem_band]
  obtain ⟨-, -, -, -, -, e5, e6⟩ := tiles ⟨(i 0).val / 512, by rw [show cfg4.N = 8 from N_4]; omega⟩
  intro a
  match a with
  | ⟨0, _⟩ => show win4_3.index _ (0 : Fin 2) * 512 ≤ (i 0).val ∧ (i 0).val < win4_3.index _ (0 : Fin 2) * 512 + 512; rw [e5]; show (i 0).val / 512 * 512 ≤ (i 0).val ∧ (i 0).val < (i 0).val / 512 * 512 + 512; omega
  | ⟨1, _⟩ => show win4_3.index _ (1 : Fin 2) * 768 ≤ (i 1).val ∧ (i 1).val < win4_3.index _ (1 : Fin 2) * 768 + 768; rw [e6]; omega

/-- THE RESULT ARRAY after the pipeline, entry by entry, from the three arrays the pipeline reads as it finds them. -/
theorem array_at (c : Dev nD) (x : S4096x768.Idx → EReal) (w : S768x768.Idx → EReal) (b : S768.Idx → EReal)
    (hx : V c main_v14_0 = x) (hw : V c main_v10 = w) (hb : V c main_arg10 = b) (r : Fin 4096) (f : Fin 768) :
    (dat4 V c).arrAt 3 cfg4.N (ix2 r f) = (∑ e : Fin 768, x (ix2 r e) * w (ix2 e f)) + b (ix1 f) := by
  subst hx hw hb
  rw [(dat4 V c).arrAt_eq_of_cover 3 (rowsTimes (V c main_v14_0) (V c main_v10) (V c main_arg10)) (fun t _ => flushed_eq V c t) covered]
  exact rowsTimes_at _ _ _ (ix2 r f) r f rfl rfl

/-- The same as one equation of arrays. -/
theorem array_eq (c : Dev nD) (x : Rows) (w : Square) (b : Bias) (hx : V c main_v14_0 = x) (hw : V c main_v10 = w) (hb : V c main_arg10 = b) :
    (dat4 V c).arrAt 3 cfg4.N = rowsTimes x w b := by
  subst hx hw hb
  exact (dat4 V c).arrAt_eq_of_cover 3 (rowsTimes (V c main_v14_0) (V c main_v10) (V c main_arg10)) (fun t _ => flushed_eq V c t) covered

end Cert.KernelIdeal.Projection4

end
-- ==== Proof.AttentionMath.lean ====
/-
  The mathematics both programs share, over the extended reals.

  A softmax of one row of 2048 scores: the row's maximum (a fold of `max` from -∞) is subtracted, the exponentials are
  taken, and each is divided by their sum.  Head `h` of twelve occupies the 64 columns `64 h … 64 h + 63` of a
  768-column row; inside a 128-column head pair, half `u` occupies columns `64 u … 64 u + 63`.
-/
import Idealize.ShloMosaic.PureOps.Ideal
import Idealize.ShloMosaic.Lib.ValueIdx

noncomputable section

namespace AttentionMath

open Idealize.ShloMosaic

/-- The softmax of a row of scores, entry `j`. -/
def softmaxRow (s : Fin 2048 → EReal) (j : Fin 2048) : EReal :=
  Ideal.div (Ideal.exp (s j - (Finset.univ : Finset (Fin 2048)).fold max (Ideal.ofBits .f32 0xFF800000#32) s))
    (∑ j' : Fin 2048, Ideal.exp (s j' - (Finset.univ : Finset (Fin 2048)).fold max (Ideal.ofBits .f32 0xFF800000#32) s))

/-- Column `64 u + d` of a 128-column head pair. -/
def lane (u : Fin 2) (d : Fin 64) : Fin 128 := ⟨u.val * 64 + d.val, by omega⟩

/-- Column `64 h + d` of a 768-column row. -/
def headCol (h : Fin 12) (d : Fin 64) : Fin 768 := ⟨h.val * 64 + d.val, by omega⟩

/-- Row `2048 n + s` of the 4096 flattened rows. -/
def flatRow (n : Fin 2) (s : Fin 2048) : Fin 4096 := ⟨n.val * 2048 + s.val, by omega⟩

theorem lane_val (u : Fin 2) (d : Fin 64) : (lane u d).val = u.val * 64 + d.val := rfl
theorem headCol_val (h : Fin 12) (d : Fin 64) : (headCol h d).val = h.val * 64 + d.val := rfl
theorem flatRow_val (n : Fin 2) (s : Fin 2048) : (flatRow n s).val = n.val * 2048 + s.val := rfl

end AttentionMath

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.AttentionBody.lean ====
/-
  One grid point of the attention kernel, entry by entry.  The point holds a 256-row query tile and the full 2048-row
  key and value tiles of one head pair (128 columns: two heads of 64).  For each half `u` of the pair the scores are the
  query rows against the key rows over that half's 64 columns, scaled by 1/8; each row of scores goes through the
  softmax; the weights are stored, and the weights times the value rows over the 2048 keys give that half's 64 output
  columns.
-/
import proofs.«113033_j45612552684065_2_alg».proof.Proof.Gen.KernelIdeal.Skeleton
import proofs.«113033_j45612552684065_2_alg».proof.Proof.AttentionMath
import proofs.«113033_j45612552684065_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Attention

open Idealize.ShloMosaic Idealize.ShloMosaic.TcCoe Idealize.SL.Sem Idealize.ShloMosaic.ValueIdx Cert.KernelIdeal Cert.KernelIdeal.Gen AttentionMath

/-! ## The two products at an index -/

theorem qk_lhs_row (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_rhs_row (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl

/-- Query rows against key rows: entry `(p, j)` is the sum over the 64 columns of `A (p, d) * B (j, d)`. -/
theorem qk_at (A : FVec Ideal S256x64 .bf16) (B : FVec Ideal S2048x64 .bf16) (p : Fin 256) (j : Fin 2048) :
    matmul dot_S256x64_S2048x64_S256x2048_1_1_0_0_n_n none A B (constant (F := Ideal) S256x2048 .f32 0x00000000#32) (ix2 p j) = ∑ d : Fin 64, A (ix2 p d) * B (ix2 j d) := by
  show FloatOps.matmul dot_S256x64_S2048x64_S256x2048_1_1_0_0_n_n none A B (constant (F := Ideal) S256x2048 .f32 0x00000000#32) (ix2 p j) = _
  rw [Ideal.matmul_constant_zero_apply, ← Equiv.sum_comp (contrEquiv1 dot_S256x64_S2048x64_S256x2048_1_1_0_0_n_n 64 rfl rfl).symm]
  refine Finset.sum_congr rfl fun d _ => ?_
  have hk := contrEquiv1_symm_val dot_S256x64_S2048x64_S256x2048_1_1_0_0_n_n 64 rfl rfl d
  have el : dot_S256x64_S2048x64_S256x2048_1_1_0_0_n_n.lhsIdx (ix2 p j) ((contrEquiv1 dot_S256x64_S2048x64_S256x2048_1_1_0_0_n_n 64 rfl rfl).symm d) = ix2 p d := funext fun a => Fin.ext (by
    match a with
    | ⟨0, _⟩ => exact qk_lhs_row _ _
    | ⟨1, _⟩ => exact (dot_S256x64_S2048x64_S256x2048_1_1_0_0_n_n.lhsIdx_val_of_single rfl _ _).trans hk)
  have er : dot_S256x64_S2048x64_S256x2048_1_1_0_0_n_n.rhsIdx (ix2 p j) ((contrEquiv1 dot_S256x64_S2048x64_S256x2048_1_1_0_0_n_n 64 rfl rfl).symm d) = ix2 j d := funext fun a => Fin.ext (by
    match a with
    | ⟨0, _⟩ => exact qk_rhs_row _ _
    | ⟨1, _⟩ => exact (dot_S256x64_S2048x64_S256x2048_1_1_0_0_n_n.rhsIdx_val_of_single rfl _ _).trans hk)
  rw [el, er]

theorem pv_lhs_row (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_rhs_col (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights against value rows: entry `(p, d)` is the sum over the 2048 keys of `A (p, j) * B (j, d)`. -/
theorem pv_at (A : FVec Ideal S256x2048 .bf16) (B : FVec Ideal S2048x64 .bf16) (p : Fin 256) (d : Fin 64) :
    matmul dot_S256x2048_S2048x64_S256x64_1_0_0_1_n_n none A B (constant (F := Ideal) S256x64 .f32 0x00000000#32) (ix2 p d) = ∑ j : Fin 2048, A (ix2 p j) * B (ix2 j d) := by
  show FloatOps.matmul dot_S256x2048_S2048x64_S256x64_1_0_0_1_n_n none A B (constant (F := Ideal) S256x64 .f32 0x00000000#32) (ix2 p d) = _
  rw [Ideal.matmul_constant_zero_apply, ← Equiv.sum_comp (contrEquiv1 dot_S256x2048_S2048x64_S256x64_1_0_0_1_n_n 2048 rfl rfl).symm]
  refine Finset.sum_congr rfl fun j _ => ?_
  have hk := contrEquiv1_symm_val dot_S256x2048_S2048x64_S256x64_1_0_0_1_n_n 2048 rfl rfl j
  have el : dot_S256x2048_S2048x64_S256x64_1_0_0_1_n_n.lhsIdx (ix2 p d) ((contrEquiv1 dot_S256x2048_S2048x64_S256x64_1_0_0_1_n_n 2048 rfl rfl).symm j) = ix2 p j := funext fun a => Fin.ext (by
    match a with
    | ⟨0, _⟩ => exact pv_lhs_row _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 p d) ((contrEquiv1 dot_S256x2048_S2048x64_S256x64_1_0_0_1_n_n 2048 rfl rfl).symm j) = ix2 j d := funext fun a => Fin.ext (by
    match a with
    | ⟨0, _⟩ => exact (dot_S256x2048_S2048x64_S256x64_1_0_0_1_n_n.rhsIdx_val_of_single rfl _ _).trans hk
    | ⟨1, _⟩ => exact pv_rhs_col _ _)
  rw [el, er]

/-! ## The softmax of a tile's rows -/

/-- A row's maximum spread back over the row. -/
theorem rowMax_spread (s : FVec Ideal S256x2048 .f32) (p : Fin 256) (j : Fin 2048) :
    (broadcastTo S256x2048 (shapeCast S256x1 (multiReduction .maximumf [1] S256 s 0xFF800000#32 reduces_S256x2048_S256 (.inl rfl) rfl) shapeCasts_S256_S256x1) broadcasts_S256x1_S256x2048) (ix2 p j) = (Finset.univ : Finset (Fin 2048)).fold max (Ideal.ofBits .f32 0xFF800000#32) (fun k => s (ix2 p k)) := by
  refine (ColumnIdx.broadcastTo_a1_ab_apply _ broadcasts_S256x1_S256x2048 p j).trans ?_
  refine (ColumnIdx.shapeCast_a_a1_apply _ shapeCasts_S256_S256x1 p 0).trans ?_
  exact ColumnIdx.rowMax_apply s reduces_S256x2048_S256 _ _ p

/-- A row's sum spread back over the row. -/
theorem rowSum_spread (s : FVec Ideal S256x2048 .f32) (p : Fin 256) (j : Fin 2048) :
    (broadcastTo S256x2048 (shapeCast S256x1 (multiReduction .add [1] S256 s 0x00000000#32 reduces_S256x2048_S256 (.inl rfl) rfl) shapeCasts_S256_S256x1) broadcasts_S256x1_S256x2048) (ix2 p j) = ∑ k : Fin 2048, s (ix2 p k) := by
  refine (ColumnIdx.broadcastTo_a1_ab_apply _ broadcasts_S256x1_S256x2048 p j).trans ?_
  refine (ColumnIdx.shapeCast_a_a1_apply _ shapeCasts_S256_S256x1 p 0).trans ?_
  exact ColumnIdx.rowSum_apply s reduces_S256x2048_S256 _ _ p

/-- The printed chain (maximum, subtract, exponential, sum, divide) is the softmax of each row. -/
theorem softmax_chain (s : FVec Ideal S256x2048 .f32) (p : Fin 256) (j : Fin 2048) :
    divf (exp (subf s (broadcastTo S256x2048 (shapeCast S256x1 (multiReduction .maximumf [1] S256 s 0xFF800000#32 reduces_S256x2048_S256 (.inl rfl) rfl) shapeCasts_S256_S256x1) broadcasts_S256x1_S256x2048))) (broadcastTo S256x2048 (shapeCast S256x1 (multiReduction .add [1] S256 (exp (subf s (broadcastTo S256x2048 (shapeCast S256x1 (multiReduction .maximumf [1] S256 s 0xFF800000#32 reduces_S256x2048_S256 (.inl rfl) rfl) shapeCasts_S256_S256x1) broadcasts_S256x1_S256x2048))) 0x00000000#32 reduces_S256x2048_S256 (.inl rfl) rfl) shapeCasts_S256_S256x1) broadcasts_S256x1_S256x2048) (ix2 p j) = softmaxRow (fun k => s (ix2 p k)) j := by
  have hE : ∀ k : Fin 2048, (exp (subf s (broadcastTo S256x2048 (shapeCast S256x1 (multiReduction .maximumf [1] S256 s 0xFF800000#32 reduces_S256x2048_S256 (.inl rfl) rfl) shapeCasts_S256_S256x1) broadcasts_S256x1_S256x2048)) : FVec Ideal S256x2048 .f32) (ix2 p k)
      = Ideal.exp (s (ix2 p k) - (Finset.univ : Finset (Fin 2048)).fold max (Ideal.ofBits .f32 0xFF800000#32) (fun k => s (ix2 p k))) := fun k => by
    show Ideal.exp (s (ix2 p k) - (broadcastTo S256x2048 (shapeCast S256x1 (multiReduction .maximumf [1] S256 s 0xFF800000#32 reduces_S256x2048_S256 (.inl rfl) rfl) shapeCasts_S256_S256x1) broadcasts_S256x1_S256x2048) (ix2 p k)) = _
    rw [rowMax_spread]
  rw [divf_apply, rowSum_spread, hE j]
  unfold softmaxRow
  refine congrArg (Ideal.div _) (Finset.sum_congr rfl fun k _ => hE k)

/-- The second half's weights from its scaled scores. -/
theorem weights_at (s : FVec Ideal S256x2048 .f32) (p : Fin 256) (j : Fin 2048) :
    k3_pay1 (F := Ideal) s (ix2 p j) = softmaxRow (fun k => s (ix2 p k)) j := by
  unfold k3_pay1
  exact softmax_chain s p j

/-! ## Scores -/

/-- The scaled scores of half `u` of the tile. -/
def tileScore (q : Vec Ideal S256x128 .f32) (k : Vec Ideal S2048x128 .f32) (u : Fin 2) (p : Fin 256) (j : Fin 2048) : EReal :=
  (∑ d : Fin 64, q (ix2 p (lane u d)) * k (ix2 j (lane u d))) * Ideal.ofBits .f32 0x3E000000#32

theorem slice_q0 (q : FVec Ideal S256x128 .f32) (p : Fin 256) (d : Fin 64) :
    extractStridedSlice S256x64 ![0, 0] q slices_S256x128_o0_0_S256x64 (ix2 p d) = q (ix2 p (lane 0 d)) :=
  slice2_axis1_apply 0 q slices_S256x128_o0_0_S256x64 p d (lane 0 d) (by show 0 * 64 + d.val = 0 + d.val; omega)
theorem slice_q1 (q : FVec Ideal S256x128 .f32) (p : Fin 256) (d : Fin 64) :
    extractStridedSlice S256x64 ![0, 64] q slices_S256x128_o0_64_S256x64 (ix2 p d) = q (ix2 p (lane 1 d)) :=
  slice2_axis1_apply 64 q slices_S256x128_o0_64_S256x64 p d (lane 1 d) (by show 1 * 64 + d.val = 64 + d.val; omega)
theorem slice_k0 (k : FVec Ideal S2048x128 .f32) (j : Fin 2048) (d : Fin 64) :
    extractStridedSlice S2048x64 ![0, 0] k slices_S2048x128_o0_0_S2048x64 (ix2 j d) = k (ix2 j (lane 0 d)) :=
  slice2_axis1_apply 0 k slices_S2048x128_o0_0_S2048x64 j d (lane 0 d) (by show 0 * 64 + d.val = 0 + d.val; omega)
theorem slice_k1 (k : FVec Ideal S2048x128 .f32) (j : Fin 2048) (d : Fin 64) :
    extractStridedSlice S2048x64 ![0, 64] k slices_S2048x128_o0_64_S2048x64 (ix2 j d) = k (ix2 j (lane 1 d)) :=
  slice2_axis1_apply 64 k slices_S2048x128_o0_64_S2048x64 j d (lane 1 d) (by show 1 * 64 + d.val = 64 + d.val; omega)

/-- The second half's scaled scores. -/
theorem scores1_at (q : Vec Ideal S256x128 .f32) (k : Vec Ideal S2048x128 .f32) (p : Fin 256) (j : Fin 2048) :
    k3_pay11 (F := Ideal) q k (ix2 p j) = tileScore q k 1 p j := by
  unfold k3_pay11 k3_pay4 k3_pay5 tileScore
  rw [mulf_apply, qk_at]
  simp only [shapeCast_self, truncf_apply, slice_q1, slice_k1]
  rfl

/-- The first half's weights: the softmax of its scaled scores. -/
theorem weights0_at (q : Vec Ideal S256x128 .f32) (k : Vec Ideal S2048x128 .f32) (p : Fin 256) (j : Fin 2048) :
    k3_pay7 (F := Ideal) q k (ix2 p j) = softmaxRow (fun j' => tileScore q k 0 p j') j := by
  unfold k3_pay7
  refine (softmax_chain _ p j).trans ?_
  refine congrArg (fun s => softmaxRow s j) (funext fun j' => ?_)
  unfold k3_pay4 k3_pay5 tileScore
  rw [mulf_apply, qk_at]
  simp only [shapeCast_self, truncf_apply, slice_q0, slice_k0]
  rfl

/-- The weights of half `u`. -/
def tileWeights (q : Vec Ideal S256x128 .f32) (k : Vec Ideal S2048x128 .f32) (u : Fin 2) (p : Fin 256) (j : Fin 2048) : EReal :=
  softmaxRow (fun j' => tileScore q k u p j') j

theorem weights1_at (q : Vec Ideal S256x128 .f32) (k : Vec Ideal S2048x128 .f32) (p : Fin 256) (j : Fin 2048) :
    k3_pay1 (F := Ideal) (k3_pay11 (F := Ideal) q k) (ix2 p j) = tileWeights q k 1 p j := by
  rw [weights_at]
  unfold tileWeights
  refine congrArg (fun s => softmaxRow s j) (funext fun j' => scores1_at q k p j')

end Cert.KernelIdeal.Attention

end
-- ==== Proof.AttentionTile.lean ====
/-
  What one grid point of the attention kernel leaves in its two output tiles, entry by entry: the stored weights tile
  `[1, 2, 256, 2048]` holds at `(·, u, p, j)` the weights of half `u`, and the output tile `[256, 128]` holds at column
  `64 u + d` of row `p` the weights of half `u` against the value rows, summed over the 2048 keys.
-/
import proofs.«113033_j45612552684065_2_alg».proof.Proof.Gen.KernelIdeal.Frame
import proofs.«113033_j45612552684065_2_alg».proof.Proof.AttentionBody

set_option maxRecDepth 16384

noncomputable section

namespace Cert.KernelIdeal.Attention

open Idealize.ShloMosaic Idealize.ShloMosaic.TcCoe Idealize.SL.Sem Idealize.ShloMosaic.ValueIdx Cert.KernelIdeal Cert.KernelIdeal.Gen AttentionMath

theorem hz2 : (![0, 0] : Fin 2 → Nat) = fun _ => 0 := funext fun a => by fin_cases a <;> rfl

/-- The first half's stored weights. -/
theorem stored_weights0 (q : Vec Ideal S256x128 .f32) (k : Vec Ideal S2048x128 .f32) (z0 z1 : Fin 1) (p : Fin 256) (j : Fin 2048) :
    k3_pay8 (F := Ideal) q k (ix4 z0 z1 p j) = tileWeights q k 0 p j := by
  unfold k3_pay8
  refine (shapeCast_apply _ shapeCasts_S256x2048_S1x1x256x2048 (ix4 z0 z1 p j) (ix2 p j) ?_).trans (weights0_at q k p j)
  rw [Shape.rowMajor_val_two, Shape.rowMajor_val_four]
  show p.val * 2048 + j.val = ((z0.val * 1 + z1.val) * 256 + p.val) * 2048 + j.val
  have := z0.isLt; have := z1.isLt; omega

/-- The second half's stored weights. -/
theorem stored_weights1 (q : Vec Ideal S256x128 .f32) (k : Vec Ideal S2048x128 .f32) (z0 z1 : Fin 1) (p : Fin 256) (j : Fin 2048) :
    k3_pay2 (F := Ideal) (k3_pay11 (F := Ideal) q k) (ix4 z0 z1 p j) = tileWeights q k 1 p j := by
  unfold k3_pay2
  refine (shapeCast_apply _ shapeCasts_S256x2048_S1x1x256x2048 (ix4 z0 z1 p j) (ix2 p j) ?_).trans (weights1_at q k p j)
  rw [Shape.rowMajor_val_two, Shape.rowMajor_val_four]
  show p.val * 2048 + j.val = ((z0.val * 1 + z1.val) * 256 + p.val) * 2048 + j.val
  have := z0.isLt; have := z1.isLt; omega

/-- The weights tile as one function of its index. -/
def weightsTile (q : Vec Ideal S256x128 .f32) (k : Vec Ideal S2048x128 .f32) : S1x2x256x2048.Idx → EReal :=
  fun y => tileWeights q k ⟨(y 1).val, (y 1).isLt⟩ ⟨(y 2).val, (y 2).isLt⟩ ⟨(y 3).val, (y 3).isLt⟩

theorem weightsTile_at (q : Vec Ideal S256x128 .f32) (k : Vec Ideal S2048x128 .f32) (y : S1x2x256x2048.Idx)
    (u : Fin 2) (p : Fin 256) (j : Fin 2048) (h1 : (y 1).val = u.val) (h2 : (y 2).val = p.val) (h3 : (y 3).val = j.val) :
    weightsTile q k y = tileWeights q k u p j := by
  unfold weightsTile
  rw [show (⟨(y 1).val, (y 1).isLt⟩ : Fin 2) = u from Fin.ext h1, show (⟨(y 2).val, (y 2).isLt⟩ : Fin 256) = p from Fin.ext h2,
    show (⟨(y 3).val, (y 3).isLt⟩ : Fin 2048) = j from Fin.ext h3]

/-- THE WEIGHTS TILE after the body. -/
theorem out_weights (q : Vec Ideal S256x128 .f32) (k v : Vec Ideal S2048x128 .f32) (z : Fin 1) (u : Fin 2) (p : Fin 256) (j : Fin 2048) :
    out3_4 (F := Ideal) q k v (ix4 z u p j) = tileWeights q k u p j := by
  unfold out3_4
  simp only [View.ld_unit_zero (S := S256x128) hz2, View.ld_unit_zero (S := S2048x128) hz2]
  refine (View.canon_apply_of_pieces (weightsTile q k) _ ?_ (ix4 z u p j) (cover3_4 _ _ _)).trans
    (weightsTile_at q k _ u p j rfl rfl rfl)
  intro pc hpc
  rcases List.mem_cons.mp hpc with rfl | hpc
  · intro x
    obtain ⟨z0, z1, p', j', rfl⟩ : ∃ (z0 z1 : Fin 1) (p' : Fin 256) (j' : Fin 2048), x = ix4 z0 z1 p' j' := ⟨x 0, x 1, x 2, x 3, eq_ix4 x⟩
    refine Eq.trans (stored_weights1 q k z0 z1 p' j') (weightsTile_at q k _ 1 p' j' ?_ ?_ ?_).symm
    · show 1 + 1 * z1.val = 1
      have := z1.isLt; omega
    · show 0 + 1 * p'.val = p'.val; omega
    · show 0 + 1 * j'.val = j'.val; omega
  · rcases List.mem_singleton.mp hpc with rfl
    intro x
    obtain ⟨z0, z1, p', j', rfl⟩ : ∃ (z0 z1 : Fin 1) (p' : Fin 256) (j' : Fin 2048), x = ix4 z0 z1 p' j' := ⟨x 0, x 1, x 2, x 3, eq_ix4 x⟩
    refine Eq.trans (stored_weights0 q k z0 z1 p' j') (weightsTile_at q k _ 0 p' j' ?_ ?_ ?_).symm
    · show 0 + 1 * z1.val = 0
      have := z1.isLt; omega
    · show 0 + 1 * p'.val = p'.val; omega
    · show 0 + 1 * j'.val = j'.val; omega

/-- The value rows of the second half. -/
theorem value1_at (v : Vec Ideal S2048x128 .f32) (j : Fin 2048) (d : Fin 64) :
    k3_pay10 (F := Ideal) v (ix2 j d) = v (ix2 j (lane 1 d)) := by
  unfold k3_pay10 k3_pay6
  simp only [shapeCast_self, truncf_apply]
  exact slice2_axis1_apply 64 v slices_S2048x128_o0_64_S2048x64 j d (lane 1 d) (by show 1 * 64 + d.val = 64 + d.val; omega)

/-- The first half's 64 output columns. -/
theorem mixed0_at (q : Vec Ideal S256x128 .f32) (k v : Vec Ideal S2048x128 .f32) (p : Fin 256) (d : Fin 64) :
    k3_pay9 (F := Ideal) q k v (ix2 p d) = ∑ j : Fin 2048, tileWeights q k 0 p j * v (ix2 j (lane 0 d)) := by
  unfold k3_pay9 k3_pay6
  rw [pv_at]
  refine Finset.sum_congr rfl fun j _ => ?_
  simp only [shapeCast_self, truncf_apply]
  rw [weights0_at]
  refine congrArg (tileWeights q k 0 p j * ·) ?_
  exact slice2_axis1_apply 0 v slices_S2048x128_o0_0_S2048x64 j d (lane 0 d) (by show 0 * 64 + d.val = 0 + d.val; omega)

theorem fin2_cases (u : Fin 2) : u = 0 ∨ u = 1 := by
  rcases u with ⟨v, hv⟩
  rcases v with _ | _ | v
  · left; rfl
  · right; rfl
  · omega

/-- The output tile's first 64 columns are the first piece. -/
theorem joined0_at (a : FVec Ideal S256x64 .f32) (vv : FVec Ideal S2048x64 .bf16) (s : FVec Ideal S256x2048 .f32) (p : Fin 256) (d : Fin 64) :
    k3_pay3 (F := Ideal) a vv s (ix2 p (lane 0 d)) = a (ix2 p d) := by
  unfold k3_pay3
  exact concatenate_pair_apply_left 1 _ _ concatenates_S256x64_S256x64_S256x128_d1 (ix2 p (lane 0 d)) rfl (ix2 p d) (fun b => by
    match b with
    | ⟨0, _⟩ => rfl
    | ⟨1, _⟩ => show d.val = 0 * 64 + d.val; omega)

/-- Its last 64 columns are the second piece: the weights against the value rows. -/
theorem joined1_at (a : FVec Ideal S256x64 .f32) (vv : FVec Ideal S2048x64 .bf16) (s : FVec Ideal S256x2048 .f32) (p : Fin 256) (d : Fin 64) :
    k3_pay3 (F := Ideal) a vv s (ix2 p (lane 1 d)) = ∑ j : Fin 2048, k3_pay1 (F := Ideal) s (ix2 p j) * vv (ix2 j d) := by
  unfold k3_pay3
  refine (concatenate_pair_apply_right 1 _ _ concatenates_S256x64_S256x64_S256x128_d1 (ix2 p (lane 1 d)) rfl rfl (ix2 p d) (fun b hb => by
    match b with
    | ⟨0, _⟩ => rfl
    | ⟨1, _⟩ => exact absurd rfl hb) (by show d.val + 64 = 1 * 64 + d.val; omega)).trans ?_
  rw [pv_at]
  simp only [truncf_apply]

/-- THE OUTPUT TILE after the body. -/
theorem out_mixed (q : Vec Ideal S256x128 .f32) (k v : Vec Ideal S2048x128 .f32) (p : Fin 256) (u : Fin 2) (d : Fin 64) :
    out3_3 (F := Ideal) q k v (ix2 p (lane u d)) = ∑ j : Fin 2048, tileWeights q k u p j * v (ix2 j (lane u d)) := by
  unfold out3_3
  rw [View.canon_unit_zero hz2]
  simp only [View.ld_unit_zero (S := S256x128) hz2, View.ld_unit_zero (S := S2048x128) hz2]
  rcases fin2_cases u with rfl | rfl
  · rw [joined0_at]; exact mixed0_at q k v p d
  · rw [joined1_at]
    refine Finset.sum_congr rfl fun j _ => ?_
    rw [weights1_at, value1_at]

end Cert.KernelIdeal.Attention

end
-- ==== Proof.AttentionSpec.lean ====
/-
  Multi-head attention over flattened rows, as functions of the three projected arrays `[4096, 768]` (row `2048 n + s` is
  position `s` of batch `n`; column `64 h + d` is coordinate `d` of head `h`): the scaled scores of a query position against
  every key position of the same batch and head, their softmax, and the weights against the value rows.
-/
import proofs.«113033_j45612552684065_2_alg».proof.Proof.AttentionMath

noncomputable section

namespace AttentionMath

open Idealize.ShloMosaic Idealize.ShloMosaic.ValueIdx

abbrev Rows := (⟨2, ![4096, 768]⟩ : Shape).Idx → EReal

/-- The scaled score of query position `s` against key position `j` in batch `n`, head `h`. -/
def score (Q K : Rows) (n : Fin 2) (h : Fin 12) (s j : Fin 2048) : EReal :=
  (∑ d : Fin 64, Q (ix2 (flatRow n s) (headCol h d)) * K (ix2 (flatRow n j) (headCol h d))) * Ideal.ofBits .f32 0x3E000000#32

/-- The attention weights. -/
def weights (Q K : Rows) (n : Fin 2) (h : Fin 12) (s j : Fin 2048) : EReal :=
  softmaxRow (fun j' => score Q K n h s j') j

/-- The weights against the value rows. -/
def mixed (Q K V : Rows) (n : Fin 2) (h : Fin 12) (s : Fin 2048) (d : Fin 64) : EReal :=
  ∑ j : Fin 2048, weights Q K n h s j * V (ix2 (flatRow n j) (headCol h d))

/-- The weights as one array `[2, 12, 2048, 2048]`. -/
def weightsWhole (Q K : Rows) : (⟨4, ![2, 12, 2048, 2048]⟩ : Shape).Idx → EReal :=
  fun i => weights Q K ⟨(i 0).val, (i 0).isLt⟩ ⟨(i 1).val, (i 1).isLt⟩ ⟨(i 2).val, (i 2).isLt⟩ ⟨(i 3).val, (i 3).isLt⟩

theorem weightsWhole_at (Q K : Rows) (i : (⟨4, ![2, 12, 2048, 2048]⟩ : Shape).Idx) (n : Fin 2) (h : Fin 12) (s j : Fin 2048)
    (h0 : (i 0).val = n.val) (h1 : (i 1).val = h.val) (h2 : (i 2).val = s.val) (h3 : (i 3).val = j.val) :
    weightsWhole Q K i = weights Q K n h s j := by
  unfold weightsWhole
  rw [show (⟨(i 0).val, (i 0).isLt⟩ : Fin 2) = n from Fin.ext h0, show (⟨(i 1).val, (i 1).isLt⟩ : Fin 12) = h from Fin.ext h1,
    show (⟨(i 2).val, (i 2).isLt⟩ : Fin 2048) = s from Fin.ext h2, show (⟨(i 3).val, (i 3).isLt⟩ : Fin 2048) = j from Fin.ext h3]

/-- The weights against the value rows as one array `[4096, 768]`: row `2048 n + s`, column `64 h + d`. -/
def mixedWhole (Q K W : Rows) : Rows :=
  fun i => mixed Q K W ⟨(i 0).val / 2048, by have := idx2_lt0 i; omega⟩ ⟨(i 1).val / 64, by have : (i 1).val < 768 := (i 1).isLt; omega⟩
    ⟨(i 0).val % 2048, by omega⟩ ⟨(i 1).val % 64, by omega⟩

theorem mixedWhole_at (Q K W : Rows) (i : (⟨2, ![4096, 768]⟩ : Shape).Idx) (n : Fin 2) (h : Fin 12) (s : Fin 2048) (d : Fin 64)
    (h0 : (i 0).val = n.val * 2048 + s.val) (h1 : (i 1).val = h.val * 64 + d.val) :
    mixedWhole Q K W i = mixed Q K W n h s d := by
  unfold mixedWhole
  have e0 : (⟨(i 0).val / 2048, by have := idx2_lt0 i; omega⟩ : Fin 2) = n := Fin.ext (by show (i 0).val / 2048 = n.val; omega)
  have e1 : (⟨(i 1).val / 64, by have : (i 1).val < 768 := (i 1).isLt; omega⟩ : Fin 12) = h := Fin.ext (by show (i 1).val / 64 = h.val; omega)
  have e2 : (⟨(i 0).val % 2048, by omega⟩ : Fin 2048) = s := Fin.ext (by show (i 0).val % 2048 = s.val; omega)
  have e3 : (⟨(i 1).val % 64, by omega⟩ : Fin 64) = d := Fin.ext (by show (i 1).val % 64 = d.val; omega)
  rw [e0, e1, e2, e3]

end AttentionMath

end
-- ==== Proof.AttentionArray.lean ====
/-
  The attention pipeline as two arrays.  Grid point `(b, hp, qi)` of `2 × 6 × 8` holds query rows
  `2048 b + 256 qi … + 255` and all 2048 key and value rows of batch `b`, each over the 128 columns of head pair `hp`.
  It writes back the same rows and columns of the output array and, of the weights array `[2, 12, 2048, 2048]`, batch
  `b`, heads `2 hp` and `2 hp + 1`, query positions `256 qi … + 255`, all keys.  The tiles of each output tile its array,
  so after the pipeline each output array is, entry by entry, the attention function of the three arrays read.
-/
import proofs.«113033_j45612552684065_2_alg».proof.Proof.Gen.KernelIdeal.Frame
import proofs.«113033_j45612552684065_2_alg».proof.Proof.AttentionTile
import proofs.«113033_j45612552684065_2_alg».proof.Proof.AttentionSpec

set_option maxRecDepth 16384

noncomputable section

namespace Cert.KernelIdeal.Attention

open Idealize.ShloMosaic Idealize.ShloMosaic.TcCoe Idealize.SL.Sem Idealize.ShloMosaic.ValueIdx Cert.KernelIdeal Cert.KernelIdeal.Gen AttentionMath Idealize.ShloMosaic.Pipeline

variable (V : (c : Dev nD) → (b : Ref sig .tc) → Buf (Elt Ideal) ((c : Thread nD τ).loc b))

/-- The index maps over the grid. -/
theorem tiles : ∀ t : Fin cfg3.N,
    (grid3.coords t 0).val < 2 ∧ (grid3.coords t 1).val < 6 ∧ (grid3.coords t 2).val < 8
    ∧ win3_0.index t (0 : Fin 2) = (grid3.coords t 0).val * 8 + (grid3.coords t 2).val ∧ win3_0.index t (1 : Fin 2) = (grid3.coords t 1).val
    ∧ win3_1.index t (0 : Fin 2) = (grid3.coords t 0).val ∧ win3_1.index t (1 : Fin 2) = (grid3.coords t 1).val
    ∧ win3_2.index t (0 : Fin 2) = (grid3.coords t 0).val ∧ win3_2.index t (1 : Fin 2) = (grid3.coords t 1).val
    ∧ win3_3.index t (0 : Fin 2) = (grid3.coords t 0).val * 8 + (grid3.coords t 2).val ∧ win3_3.index t (1 : Fin 2) = (grid3.coords t 1).val
    ∧ win3_4.index t (0 : Fin 4) = (grid3.coords t 0).val ∧ win3_4.index t (1 : Fin 4) = (grid3.coords t 1).val
    ∧ win3_4.index t (2 : Fin 4) = (grid3.coords t 2).val ∧ win3_4.index t (3 : Fin 4) = 0 :=
  (by decide +kernel : ∀ t : Fin grid3.N, _)

/-- Every `(b, hp, qi)` is some point's. -/
theorem onto : ∀ (b : Fin 2) (hp : Fin 6) (qi : Fin 8), ∃ t : Fin cfg3.N,
    (grid3.coords t 0).val = b.val ∧ (grid3.coords t 1).val = hp.val ∧ (grid3.coords t 2).val = qi.val :=
  (by decide +kernel : ∀ (b : Fin 2) (hp : Fin 6) (qi : Fin 8), ∃ t : Fin grid3.N, _)

/-- The query tile's entries in the query array. -/
theorem q_tile (c : Dev nD) (t : Fin cfg3.N) (p : Fin 256) (l : Fin 128) (r : Fin 4096) (col : Fin 768)
    (hr : r.val = win3_0.index t (0 : Fin 2) * 256 + p.val) (hc : col.val = win3_0.index t (1 : Fin 2) * 128 + l.val) :
    iblk3 V c 0 t (ix2 p l) = (V c main_v11 : S4096x768.Idx → EReal) (ix2 r col) := by
  show (V c main_v11 : S4096x768.Idx → EReal) (((cfg3.win 0).blk t).view.emb (ix2 p l)) = _
  refine congrArg (V c main_v11 : S4096x768.Idx → EReal) (funext fun a => Fin.ext ?_)
  match a with
  | ⟨0, _⟩ => show win3_0.index t (0 : Fin 2) * 256 + 1 * p.val = r.val; omega
  | ⟨1, _⟩ => show win3_0.index t (1 : Fin 2) * 128 + 1 * l.val = col.val; omega

/-- The key tile's entries in the key array. -/
theorem k_tile (c : Dev nD) (t : Fin cfg3.N) (p : Fin 2048) (l : Fin 128) (r : Fin 4096) (col : Fin 768)
    (hr : r.val = win3_1.index t (0 : Fin 2) * 2048 + p.val) (hc : col.val = win3_1.index t (1 : Fin 2) * 128 + l.val) :
    iblk3 V c 1 t (ix2 p l) = (V c main_v12 : S4096x768.Idx → EReal) (ix2 r col) := by
  show (V c main_v12 : S4096x768.Idx → EReal) (((cfg3.win 1).blk t).view.emb (ix2 p l)) = _
  refine congrArg (V c main_v12 : S4096x768.Idx → EReal) (funext fun a => Fin.ext ?_)
  match a with
  | ⟨0, _⟩ => show win3_1.index t (0 : Fin 2) * 2048 + 1 * p.val = r.val; omega
  | ⟨1, _⟩ => show win3_1.index t (1 : Fin 2) * 128 + 1 * l.val = col.val; omega

/-- The value tile's entries in the value array. -/
theorem v_tile (c : Dev nD) (t : Fin cfg3.N) (p : Fin 2048) (l : Fin 128) (r : Fin 4096) (col : Fin 768)
    (hr : r.val = win3_2.index t (0 : Fin 2) * 2048 + p.val) (hc : col.val = win3_2.index t (1 : Fin 2) * 128 + l.val) :
    iblk3 V c 2 t (ix2 p l) = (V c main_v13 : S4096x768.Idx → EReal) (ix2 r col) := by
  show (V c main_v13 : S4096x768.Idx → EReal) (((cfg3.win 2).blk t).view.emb (ix2 p l)) = _
  refine congrArg (V c main_v13 : S4096x768.Idx → EReal) (funext fun a => Fin.ext ?_)
  match a with
  | ⟨0, _⟩ => show win3_2.index t (0 : Fin 2) * 2048 + 1 * p.val = r.val; omega
  | ⟨1, _⟩ => show win3_2.index t (1 : Fin 2) * 128 + 1 * l.val = col.val; omega

/-- A tile's scaled scores are the array's. -/
theorem tile_score (c : Dev nD) (t : Fin cfg3.N) (u : Fin 2) (p : Fin 256) (j : Fin 2048) (n : Fin 2) (h : Fin 12) (s : Fin 2048)
    (hn : n.val = (grid3.coords t 0).val) (hh : h.val = (grid3.coords t 1).val * 2 + u.val) (hs : s.val = (grid3.coords t 2).val * 256 + p.val) :
    tileScore (iblk3 V c 0 t) (iblk3 V c 1 t) u p j = score (V c main_v11) (V c main_v12) n h s j := by
  obtain ⟨b0, b1, b2, e0, e1, e2, e3, -⟩ := tiles t
  unfold tileScore score
  refine congrArg (· * _) (Finset.sum_congr rfl fun d _ => ?_)
  rw [q_tile V c t p (lane u d) (flatRow n s) (headCol h d) (by rw [flatRow_val, e0]; omega) (by rw [headCol_val, lane_val, e1]; omega),
    k_tile V c t j (lane u d) (flatRow n j) (headCol h d) (by rw [flatRow_val, e2]; omega) (by rw [headCol_val, lane_val, e3]; omega)]

/-! ## The weights array -/

/-- What point `t` writes back of the weights is its tile of `weightsWhole`. -/
theorem flushed_weights (c : Dev nD) (t : Fin cfg3.N) :
    (dat3 V c).flushed 4 t = ((cfg3.win 4).blk t).view.read (Elt Ideal) (weightsWhole (V c main_v11) (V c main_v12)) := by
  show (cfg3.win 4).cut (grid3.coords t) ((dat3 V c).after 4 t) = _
  rw [after3_4]
  funext y
  obtain ⟨z, u, p, j, rfl⟩ : ∃ (z : Fin 1) (u : Fin 2) (p : Fin 256) (j : Fin 2048), y = ix4 z u p j := ⟨y 0, y 1, y 2, y 3, eq_ix4 y⟩
  obtain ⟨b0, b1, b2, -, -, -, -, -, -, -, -, e4, e5, e6, e7⟩ := tiles t
  refine (out_weights (iblk3 V c 0 t) (iblk3 V c 1 t) (iblk3 V c 2 t) z u p j).trans ?_
  refine Eq.trans ?_ (weightsWhole_at (V c main_v11) (V c main_v12) (((cfg3.win 4).blk t).view.emb (ix4 z u p j))
    ⟨(grid3.coords t 0).val, b0⟩ ⟨(grid3.coords t 1).val * 2 + u.val, by omega⟩ ⟨(grid3.coords t 2).val * 256 + p.val, by omega⟩ j ?_ ?_ ?_ ?_).symm
  · unfold tileWeights weights
    refine congrArg (fun s => softmaxRow s j) (funext fun j' => ?_)
    exact tile_score V c t u p j' _ _ _ rfl rfl rfl
  · show win3_4.index t (0 : Fin 4) * 1 + 1 * z.val = (grid3.coords t 0).val
    have := z.isLt; omega
  · show win3_4.index t (1 : Fin 4) * 2 + 1 * u.val = (grid3.coords t 1).val * 2 + u.val; omega
  · show win3_4.index t (2 : Fin 4) * 256 + 1 * p.val = (grid3.coords t 2).val * 256 + p.val; omega
  · show win3_4.index t (3 : Fin 4) * 2048 + 1 * j.val = j.val; omega

theorem mem_weights_tile (t : Fin cfg3.N) (i : S2x12x2048x2048.Idx) :
    i ∈ ((cfg3.win 4).blk t).view.set ↔ ∀ a : Fin 4, win3_4.index t a * S1x2x256x2048.size a ≤ (i a).val ∧ (i a).val < win3_4.index t a * S1x2x256x2048.size a + S1x2x256x2048.size a := by
  show i ∈ ((View.whole main_v14_1).slice (win3_4.rect t)).set ↔ _
  rw [View.set_slice_whole, Rect.mem_set_unit]
  exact Iff.rfl

theorem covered_weights (i : S2x12x2048x2048.Idx) : ∃ t : Fin cfg3.N, (cfg3.win 4).flush t = true ∧ i ∈ ((cfg3.win 4).blk t).view.set := by
  have hi0 : (i 0).val < 2 := (i 0).isLt
  have hi1 : (i 1).val < 12 := (i 1).isLt
  have hi2 : (i 2).val < 2048 := (i 2).isLt
  have hi3 : (i 3).val < 2048 := (i 3).isLt
  obtain ⟨t, c0, c1, c2⟩ := onto ⟨(i 0).val, hi0⟩ ⟨(i 1).val / 2, by omega⟩ ⟨(i 2).val / 256, by omega⟩
  obtain ⟨b0, b1, b2, -, -, -, -, -, -, -, -, e4, e5, e6, e7⟩ := tiles t
  refine ⟨t, flush3_4 t, ?_⟩
  rw [mem_weights_tile]
  have c0' : (grid3.coords t 0).val = (i 0).val := c0
  have c1' : (grid3.coords t 1).val = (i 1).val / 2 := c1
  have c2' : (grid3.coords t 2).val = (i 2).val / 256 := c2
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 2 ≤ (i 1).val ∧ (i 1).val < win3_4.index t (1 : Fin 4) * 2 + 2; omega
  | ⟨2, _⟩ => show win3_4.index t (2 : Fin 4) * 256 ≤ (i 2).val ∧ (i 2).val < win3_4.index t (2 : Fin 4) * 256 + 256; omega
  | ⟨3, _⟩ => show win3_4.index t (3 : Fin 4) * 2048 ≤ (i 3).val ∧ (i 3).val < win3_4.index t (3 : Fin 4) * 2048 + 2048; omega

/-- THE WEIGHTS ARRAY after the pipeline, entry by entry. -/
theorem weights_array_at (c : Dev nD) (Q K : Rows) (hQ : V c main_v11 = Q) (hK : V c main_v12 = K)
    (n : Fin 2) (h : Fin 12) (s j : Fin 2048) :
    (dat3 V c).arrAt 4 cfg3.N (ix4 n h s j) = weights Q K n h s j := by
  subst hQ hK
  rw [(dat3 V c).arrAt_eq_of_cover 4 (weightsWhole (V c main_v11) (V c main_v12)) (fun t _ => flushed_weights V c t) covered_weights]
  exact weightsWhole_at _ _ (ix4 n h s j) n h s j rfl rfl rfl rfl

/-- The same as one equation of arrays. -/
theorem weights_array (c : Dev nD) (Q K : Rows) (hQ : V c main_v11 = Q) (hK : V c main_v12 = K) :
    (dat3 V c).arrAt 4 cfg3.N = weightsWhole Q K := by
  subst hQ hK
  exact (dat3 V c).arrAt_eq_of_cover 4 (weightsWhole (V c main_v11) (V c main_v12)) (fun t _ => flushed_weights V c t) covered_weights

/-! ## The output array -/

/-- What point `t` writes back of the output is its tile of `mixedWhole`. -/
theorem flushed_mixed (c : Dev nD) (t : Fin cfg3.N) :
    (dat3 V c).flushed 3 t = ((cfg3.win 3).blk t).view.read (Elt Ideal) (mixedWhole (V c main_v11) (V c main_v12) (V c main_v13)) := by
  show (cfg3.win 3).cut (grid3.coords t) ((dat3 V c).after 3 t) = _
  rw [after3_3]
  funext y
  obtain ⟨p, l, rfl⟩ : ∃ (p : Fin 256) (l : Fin 128), y = ix2 p l := ⟨y 0, y 1, eq_ix2 y⟩
  obtain ⟨u, d, rfl⟩ : ∃ (u : Fin 2) (d : Fin 64), l = lane u d :=
    ⟨⟨l.val / 64, by omega⟩, ⟨l.val % 64, by omega⟩, Fin.ext (by show l.val = l.val / 64 * 64 + l.val % 64; omega)⟩
  obtain ⟨b0, b1, b2, -, -, -, -, e4, e5, e6, e7, -⟩ := tiles t
  refine (out_mixed (iblk3 V c 0 t) (iblk3 V c 1 t) (iblk3 V c 2 t) p u d).trans ?_
  refine Eq.trans ?_ (mixedWhole_at (V c main_v11) (V c main_v12) (V c main_v13) (((cfg3.win 3).blk t).view.emb (ix2 p (lane u d)))
    ⟨(grid3.coords t 0).val, b0⟩ ⟨(grid3.coords t 1).val * 2 + u.val, by omega⟩ ⟨(grid3.coords t 2).val * 256 + p.val, by omega⟩ d ?_ ?_).symm
  · unfold mixed
    refine Finset.sum_congr rfl fun j _ => ?_
    have hw : tileWeights (iblk3 V c 0 t) (iblk3 V c 1 t) u p j
        = weights (V c main_v11) (V c main_v12) ⟨(grid3.coords t 0).val, b0⟩ ⟨(grid3.coords t 1).val * 2 + u.val, by omega⟩ ⟨(grid3.coords t 2).val * 256 + p.val, by omega⟩ j := by
      unfold tileWeights weights
      refine congrArg (fun s => softmaxRow s j) (funext fun j' => ?_)
      exact tile_score V c t u p j' _ _ _ rfl rfl rfl
    rw [hw, v_tile V c t j (lane u d) (flatRow ⟨(grid3.coords t 0).val, b0⟩ j) (headCol ⟨(grid3.coords t 1).val * 2 + u.val, by omega⟩ d)
      (by rw [flatRow_val, e4]) (by rw [headCol_val, lane_val, e5]; show ((grid3.coords t 1).val * 2 + u.val) * 64 + d.val = (grid3.coords t 1).val * 128 + (u.val * 64 + d.val); omega)]
  · show win3_3.index t (0 : Fin 2) * 256 + 1 * p.val = (grid3.coords t 0).val * 2048 + ((grid3.coords t 2).val * 256 + p.val); omega
  · show win3_3.index t (1 : Fin 2) * 128 + 1 * (lane u d).val = ((grid3.coords t 1).val * 2 + u.val) * 64 + d.val
    rw [lane_val]; omega

theorem mem_mixed_tile (t : Fin cfg3.N) (i : S4096x768.Idx) :
    i ∈ ((cfg3.win 3).blk t).view.set ↔ ∀ a : Fin 2, win3_3.index t a * S256x128.size a ≤ (i a).val ∧ (i a).val < win3_3.index t a * S256x128.size a + S256x128.size a := by
  show i ∈ ((View.whole main_v14_0).slice (win3_3.rect t)).set ↔ _
  rw [View.set_slice_whole, Rect.mem_set_unit]
  exact Iff.rfl

theorem covered_mixed (i : S4096x768.Idx) : ∃ t : Fin cfg3.N, (cfg3.win 3).flush t = true ∧ i ∈ ((cfg3.win 3).blk t).view.set := by
  have hi0 : (i 0).val < 4096 := idx2_lt0 i
  have hi1 : (i 1).val < 768 := (i 1).isLt
  obtain ⟨t, c0, c1, c2⟩ := onto ⟨(i 0).val / 2048, by omega⟩ ⟨(i 1).val / 128, by omega⟩ ⟨(i 0).val % 2048 / 256, by omega⟩
  obtain ⟨b0, b1, b2, -, -, -, -, -, -, e6, e7, -⟩ := tiles t
  refine ⟨t, flush3_3 t, ?_⟩
  rw [mem_mixed_tile]
  have c0' : (grid3.coords t 0).val = (i 0).val / 2048 := c0
  have c1' : (grid3.coords t 1).val = (i 1).val / 128 := c1
  have c2' : (grid3.coords t 2).val = (i 0).val % 2048 / 256 := c2
  intro a
  match a with
  | ⟨0, _⟩ => show win3_3.index t (0 : Fin 2) * 256 ≤ (i 0).val ∧ (i 0).val < win3_3.index t (0 : Fin 2) * 256 + 256; omega
  | ⟨1, _⟩ => show win3_3.index t (1 : Fin 2) * 128 ≤ (i 1).val ∧ (i 1).val < win3_3.index t (1 : Fin 2) * 128 + 128; omega

/-- THE OUTPUT ARRAY after the pipeline, entry by entry. -/
theorem mixed_array_at (c : Dev nD) (Q K W : Rows) (hQ : V c main_v11 = Q) (hK : V c main_v12 = K) (hW : V c main_v13 = W)
    (n : Fin 2) (h : Fin 12) (s : Fin 2048) (d : Fin 64) :
    (dat3 V c).arrAt 3 cfg3.N (ix2 (flatRow n s) (headCol h d)) = mixed Q K W n h s d := by
  subst hQ hK hW
  rw [(dat3 V c).arrAt_eq_of_cover 3 (mixedWhole (V c main_v11) (V c main_v12) (V c main_v13)) (fun t _ => flushed_mixed V c t) covered_mixed]
  exact mixedWhole_at _ _ _ (ix2 (flatRow n s) (headCol h d)) n h s d rfl rfl

/-- The same as one equation of arrays. -/
theorem mixed_array (c : Dev nD) (Q K W : Rows) (hQ : V c main_v11 = Q) (hK : V c main_v12 = K) (hW : V c main_v13 = W) :
    (dat3 V c).arrAt 3 cfg3.N = mixedWhole Q K W := by
  subst hQ hK hW
  exact (dat3 V c).arrAt_eq_of_cover 3 (mixedWhole (V c main_v11) (V c main_v12) (V c main_v13)) (fun t _ => flushed_mixed V c t) covered_mixed

end Cert.KernelIdeal.Attention

end
-- ==== Proof.ModelSpec.lean ====
/-
  The whole model over the extended reals, from the eleven argument arrays: three linear projections of `[2, 2048, 768]`
  inputs by `[768, 768]` weights (entry `(f, e)` multiplies input coordinate `e` into output coordinate `f`) with a bias,
  laid out as flattened rows; attention over them; and the output projection of the mixed rows, back in
  `[2, 2048, 768]`.  Two facts about the scale: the word `0x42800000` is 64, whose square root is 8, and dividing by 8 is
  multiplying by the word `0x3E000000`, one eighth; and a maximum with -∞ is the other operand.
-/
import proofs.«113033_j45612552684065_2_alg».proof.Proof.AttentionSpec
import proofs.«113033_j45612552684065_2_alg».proof.Proof.ProjectionSpec

noncomputable section

namespace ModelMath

open Idealize.ShloMosaic Idealize.ShloMosaic.ValueIdx AttentionMath

abbrev Input := (⟨3, ![2, 2048, 768]⟩ : Shape).Idx → EReal
abbrev Square := (⟨2, ![768, 768]⟩ : Shape).Idx → EReal
abbrev Bias := (⟨1, ![768]⟩ : Shape).Idx → EReal

/-- A linear projection, as flattened rows: row `2048 n + s`, column `f`. -/
def linear (x : Input) (W : Square) (b : Bias) : Rows :=
  fun i => (∑ e : Fin 768, x (ix3 ⟨(i 0).val / 2048, by have := idx2_lt0 i; omega⟩ ⟨(i 0).val % 2048, by omega⟩ e) * W (ix2 ⟨(i 1).val, (i 1).isLt⟩ e))
    + b (ix1 ⟨(i 1).val, (i 1).isLt⟩)

theorem linear_at (x : Input) (W : Square) (b : Bias) (i : (⟨2, ![4096, 768]⟩ : Shape).Idx) (n : Fin 2) (s : Fin 2048) (f : Fin 768)
    (h0 : (i 0).val = n.val * 2048 + s.val) (h1 : (i 1).val = f.val) :
    linear x W b i = (∑ e : Fin 768, x (ix3 n s e) * W (ix2 f e)) + b (ix1 f) := by
  unfold linear
  have e0 : (⟨(i 0).val / 2048, by have := idx2_lt0 i; omega⟩ : Fin 2) = n := Fin.ext (by show (i 0).val / 2048 = n.val; omega)
  have e1 : (⟨(i 0).val % 2048, by omega⟩ : Fin 2048) = s := Fin.ext (by show (i 0).val % 2048 = s.val; omega)
  have e2 : (⟨(i 1).val, (i 1).isLt⟩ : Fin 768) = f := Fin.ext h1
  rw [e0, e1, e2]

/-- The output projection of mixed rows `O`, back in `[2, 2048, 768]`. -/
def output (O : Rows) (W : Square) (b : Bias) : Input :=
  fun i => (∑ e : Fin 768, O (ix2 (flatRow ⟨(i 0).val, (i 0).isLt⟩ ⟨(i 1).val, (i 1).isLt⟩) e) * W (ix2 ⟨(i 2).val, (i 2).isLt⟩ e))
    + b (ix1 ⟨(i 2).val, (i 2).isLt⟩)

theorem output_at (O : Rows) (W : Square) (b : Bias) (n : Fin 2) (s : Fin 2048) (f : Fin 768) :
    output O W b (ix3 n s f) = (∑ e : Fin 768, O (ix2 (flatRow n s) e) * W (ix2 f e)) + b (ix1 f) := rfl

/-- The whole model's first result. -/
def modelOut (x0 x1 x2 : Input) (W3 : Square) (b4 : Bias) (W5 : Square) (b6 : Bias) (W7 : Square) (b8 : Bias) (W9 : Square) (b10 : Bias) : Input :=
  output (mixedWhole (linear x0 W3 b4) (linear x1 W5 b6) (linear x2 W7 b8)) W9 b10

/-- The whole model's second result: the attention weights. -/
def modelWeights (x0 x1 : Input) (W3 : Square) (b4 : Bias) (W5 : Square) (b6 : Bias) : (⟨4, ![2, 12, 2048, 2048]⟩ : Shape).Idx → EReal :=
  weightsWhole (linear x0 W3 b4) (linear x1 W5 b6)

/-! ## The scale, and the maximum's unit -/

theorem word_64 : Ideal.ofBits .f32 0x42800000#32 = ((64 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

theorem sqrt_64 : Ideal.sqrt ((64 : ℝ) : EReal) = ((8 : ℝ) : EReal) := by
  show (if (64 : ℝ) < 0 then (⊥ : EReal) else ((Real.sqrt 64 : ℝ) : EReal)) = _
  rw [if_neg (by norm_num)]
  refine congrArg (fun r : ℝ => (r : EReal)) ?_
  rw [show (64 : ℝ) = 8 ^ 2 by norm_num]
  exact Real.sqrt_sq (by norm_num)

/-- Dividing by the square root of the word for 64 is multiplying by the word for one eighth. -/
theorem scale_eq (x : EReal) :
    Ideal.div x (Ideal.sqrt (Ideal.ofBits .f32 0x42800000#32)) = x * Ideal.ofBits .f32 0x3E000000#32 := by
  rw [word_64, sqrt_64, word_eighth]
  exact Ideal.div_coe (by norm_num) x

theorem max_negInf (y : EReal) : max (Ideal.ofBits .f32 0xFF800000#32) y = y := by
  simp [Ideal.ofBits, Ideal.ieee]

theorem word_zero_add (y : EReal) : Ideal.ofBits .f32 0x00000000#32 + y = y := by
  simp [Ideal.ofBits, Ideal.ieee]

end ModelMath

end
-- ==== Proof.KernelInputs.lean ====
/-
  How the kernel's launches see the arguments.  Each `[2, 2048, 768]` input is reshaped to 4096 flattened rows; each weight
  matrix is transposed and narrowed (the narrowing is the identity on extended reals).  A projection launch over such
  rows and such a matrix is the linear map of the input by the untransposed weights.
-/
import proofs.«113033_j45612552684065_2_alg».proof.KernelIdeal
import proofs.«113033_j45612552684065_2_alg».proof.Proof.ModelSpec
import Idealize.ShloMosaic.Lib.ValueIdx
import Idealize.ShloMosaic.Lib.Pipeline.Value

set_option maxRecDepth 16384

noncomputable section

namespace Cert.KernelIdeal.Inputs

open Idealize.ShloMosaic Idealize.ShloMosaic.TcCoe Idealize.SL.Sem Idealize.ShloMosaic.ValueIdx Cert.KernelIdeal ModelMath AttentionMath

variable [Facts]
open Facts₀ Facts

/-- The flattened input at row `2048 n + s`. -/
theorem flat_at (x : Input) (r : Fin 4096) (e : Fin 768) (n : Fin 2) (s : Fin 2048) (hr : r.val = n.val * 2048 + s.val) :
    shapeCast S4096x768 x shapeCasts_S2x2048x768_S4096x768 (ix2 r e) = x (ix3 n s e) :=
  shapeCast_apply x shapeCasts_S2x2048x768_S4096x768 (ix2 r e) (ix3 n s e) (by
    rw [Shape.rowMajor_val_three, Shape.rowMajor_val_two]
    show (n.val * 2048 + s.val) * 768 + e.val = r.val * 768 + e.val
    rw [hr])

/-- The transposed, narrowed weights at `(e, f)`. -/
theorem turned_at (W : Square) (e f : Fin 768) :
    (truncf (F := Ideal) .bf16 (transpose S768x768 [1, 0] W transposes_S768x768_S768x768_1_0) bitsLt_bf16_f32 : FVec Ideal S768x768 .bf16) (ix2 e f)
      = W (ix2 f e) :=
  transpose_apply [1, 0] W transposes_S768x768_S768x768_1_0 (ix2 e f) (ix2 f e) (fun b => match b with
    | ⟨0, _⟩ => rfl
    | ⟨1, _⟩ => rfl)

/-- A projection launch over a flattened input is the linear map. -/
theorem rows_of_input (x : Input) (W : Square) (b : Bias) :
    ProjectionMath.rowsTimes (shapeCast S4096x768 x shapeCasts_S2x2048x768_S4096x768)
      (truncf (F := Ideal) .bf16 (transpose S768x768 [1, 0] W transposes_S768x768_S768x768_1_0) bitsLt_bf16_f32 : FVec Ideal S768x768 .bf16) b
      = linear x W b := by
  funext i
  obtain ⟨r, f, rfl⟩ : ∃ (r : Fin 4096) (f : Fin 768), i = ix2 r f := ⟨i 0, i 1, eq_ix2 i⟩
  rw [ProjectionMath.rowsTimes_at _ _ _ (ix2 r f) r f rfl rfl,
    linear_at x W b (ix2 r f) ⟨r.val / 2048, by omega⟩ ⟨r.val % 2048, by omega⟩ f (by show r.val = r.val / 2048 * 2048 + r.val % 2048; omega) rfl]
  refine congrArg (· + _) (Finset.sum_congr rfl fun e _ => ?_)
  rw [flat_at x r e ⟨r.val / 2048, by omega⟩ ⟨r.val % 2048, by omega⟩ (by show r.val = r.val / 2048 * 2048 + r.val % 2048; omega), turned_at]

/-- The output launch over mixed rows, reshaped back, is the output projection. -/
theorem output_of_rows (O : Rows) (W : Square) (b : Bias) :
    shapeCast S2x2048x768 (ProjectionMath.rowsTimes O
      (truncf (F := Ideal) .bf16 (transpose S768x768 [1, 0] W transposes_S768x768_S768x768_1_0) bitsLt_bf16_f32 : FVec Ideal S768x768 .bf16) b)
      shapeCasts_S4096x768_S2x2048x768 = output O W b := by
  funext i
  obtain ⟨n, s, f, rfl⟩ : ∃ (n : Fin 2) (s : Fin 2048) (f : Fin 768), i = ix3 n s f := ⟨i 0, i 1, i 2, eq_ix3 i⟩
  refine (shapeCast_apply _ shapeCasts_S4096x768_S2x2048x768 (ix3 n s f) (ix2 (flatRow n s) f) (by
    rw [Shape.rowMajor_val_three, Shape.rowMajor_val_two]; rfl)).trans ?_
  rw [ProjectionMath.rowsTimes_at _ _ _ (ix2 (flatRow n s) f) (flatRow n s) f rfl rfl, output_at]
  refine congrArg (· + _) (Finset.sum_congr rfl fun e _ => ?_)
  rw [turned_at]

end Cert.KernelIdeal.Inputs

end
-- ==== Proof.KernelValue.lean ====
/-
  The idealized kernel's two result arrays as functions of the eleven arguments.  The contents of the buffers at the
  seven segment boundaries are a fold from the launch memory; a buffer that a launch does not write keeps its contents
  across it, and an output of a launch holds what the launch's pipeline leaves.  Walking the fold: the three projections
  are linear maps of the inputs; the attention launch reads them and leaves the attention weights and the mixed rows;
  the last launch projects the mixed rows and the closing reshape restores `[2, 2048, 768]`.
-/
import proofs.«113033_j45612552684065_2_alg».proof.Proof.Gen.KernelIdeal.Frame
import proofs.«113033_j45612552684065_2_alg».proof.Proof.ProjectionArray0
import proofs.«113033_j45612552684065_2_alg».proof.Proof.ProjectionArray1
import proofs.«113033_j45612552684065_2_alg».proof.Proof.ProjectionArray2
import proofs.«113033_j45612552684065_2_alg».proof.Proof.ProjectionArray4
import proofs.«113033_j45612552684065_2_alg».proof.Proof.AttentionArray
import proofs.«113033_j45612552684065_2_alg».proof.Proof.KernelInputs
import proofs.«113033_j45612552684065_2_alg».proof.Proof.ModelSpec
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx Cert.KernelIdeal Cert.KernelIdeal.Gen ModelMath AttentionMath Idealize.ShloMosaic.StableHlo

variable (m : (ℓ : Loc nD τ sig) → Buf (Elt Ideal) ℓ) (ρ : Dev nD → PrngReg)

/-! ## What the host operations before the first launch leave -/

theorem flat0 (c : Dev nD) : W1 m ρ c (Proc.devRef .tc main_v0) = (shapeCast S4096x768 (m ((c : Thread nD τ).loc main_arg0)) shapeCasts_S2x2048x768_S4096x768) := by
  show StableHlo.after hostOps0 (W0 m ρ c) (Proc.devRef .tc main_v0) = _
  after_results
  rfl
theorem flat1 (c : Dev nD) : W1 m ρ c (Proc.devRef .tc main_v1) = (shapeCast S4096x768 (m ((c : Thread nD τ).loc main_arg1)) shapeCasts_S2x2048x768_S4096x768) := by
  show StableHlo.after hostOps0 (W0 m ρ c) (Proc.devRef .tc main_v1) = _
  after_results
  rfl
theorem flat2 (c : Dev nD) : W1 m ρ c (Proc.devRef .tc main_v2) = (shapeCast S4096x768 (m ((c : Thread nD τ).loc main_arg2)) shapeCasts_S2x2048x768_S4096x768) := by
  show StableHlo.after hostOps0 (W0 m ρ c) (Proc.devRef .tc main_v2) = _
  after_results
  rfl
theorem turned3 (c : Dev nD) : W1 m ρ c (Proc.devRef .tc main_v4) = (truncf (F := Ideal) .bf16 (transpose S768x768 [1, 0] (m ((c : Thread nD τ).loc main_arg3)) transposes_S768x768_S768x768_1_0) bitsLt_bf16_f32 : FVec Ideal S768x768 .bf16) := by
  show StableHlo.after hostOps0 (W0 m ρ c) (Proc.devRef .tc main_v4) = _
  after_results
theorem turned5 (c : Dev nD) : W1 m ρ c (Proc.devRef .tc main_v6) = (truncf (F := Ideal) .bf16 (transpose S768x768 [1, 0] (m ((c : Thread nD τ).loc main_arg5)) transposes_S768x768_S768x768_1_0) bitsLt_bf16_f32 : FVec Ideal S768x768 .bf16) := by
  show StableHlo.after hostOps0 (W0 m ρ c) (Proc.devRef .tc main_v6) = _
  after_results
theorem turned7 (c : Dev nD) : W1 m ρ c (Proc.devRef .tc main_v8) = (truncf (F := Ideal) .bf16 (transpose S768x768 [1, 0] (m ((c : Thread nD τ).loc main_arg7)) transposes_S768x768_S768x768_1_0) bitsLt_bf16_f32 : FVec Ideal S768x768 .bf16) := by
  show StableHlo.after hostOps0 (W0 m ρ c) (Proc.devRef .tc main_v8) = _
  after_results
theorem turned9 (c : Dev nD) : W1 m ρ c (Proc.devRef .tc main_v10) = (truncf (F := Ideal) .bf16 (transpose S768x768 [1, 0] (m ((c : Thread nD τ).loc main_arg9)) transposes_S768x768_S768x768_1_0) bitsLt_bf16_f32 : FVec Ideal S768x768 .bf16) := by
  show StableHlo.after hostOps0 (W0 m ρ c) (Proc.devRef .tc main_v10) = _
  after_results
theorem bias4 (c : Dev nD) : W1 m ρ c (Proc.devRef .tc main_arg4) = (m ((c : Thread nD τ).loc main_arg4)) := by
  show StableHlo.after hostOps0 (W0 m ρ c) (Proc.devRef .tc main_arg4) = _
  after_results
theorem bias6 (c : Dev nD) : W1 m ρ c (Proc.devRef .tc main_arg6) = (m ((c : Thread nD τ).loc main_arg6)) := by
  show StableHlo.after hostOps0 (W0 m ρ c) (Proc.devRef .tc main_arg6) = _
  after_results
theorem bias8 (c : Dev nD) : W1 m ρ c (Proc.devRef .tc main_arg8) = (m ((c : Thread nD τ).loc main_arg8)) := by
  show StableHlo.after hostOps0 (W0 m ρ c) (Proc.devRef .tc main_arg8) = _
  after_results
theorem bias10 (c : Dev nD) : W1 m ρ c (Proc.devRef .tc main_arg10) = (m ((c : Thread nD τ).loc main_arg10)) := by
  show StableHlo.after hostOps0 (W0 m ρ c) (Proc.devRef .tc main_arg10) = _
  after_results

/-! ## The three projections -/

theorem queries (c : Dev nD) : V4 m ρ c main_v11 = linear (m ((c : Thread nD τ).loc main_arg0)) (m ((c : Thread nD τ).loc main_arg3)) (m ((c : Thread nD τ).loc main_arg4)) :=
  calc W4 m ρ c (Proc.devRef .tc main_v11)
    _ = W3 m ρ c (Proc.devRef .tc main_v11) := W4_of_ne m ρ c main_v11 (by decide)
    _ = W2 m ρ c (Proc.devRef .tc main_v11) := W3_of_ne m ρ c main_v11 (by decide)
    _ = (dat0 (V1 m ρ) c).arrAt 3 cfg0.N := W2_arr m ρ c 3
    _ = ProjectionMath.rowsTimes (shapeCast S4096x768 (m ((c : Thread nD τ).loc main_arg0)) shapeCasts_S2x2048x768_S4096x768) (truncf (F := Ideal) .bf16 (transpose S768x768 [1, 0] (m ((c : Thread nD τ).loc main_arg3)) transposes_S768x768_S768x768_1_0) bitsLt_bf16_f32 : FVec Ideal S768x768 .bf16) (m ((c : Thread nD τ).loc main_arg4)) :=
        Projection0.array_eq (V1 m ρ) c _ _ _ (flat0 m ρ c) (turned3 m ρ c) (bias4 m ρ c)
    _ = _ := Inputs.rows_of_input _ _ _

theorem keys (c : Dev nD) : V4 m ρ c main_v12 = linear (m ((c : Thread nD τ).loc main_arg1)) (m ((c : Thread nD τ).loc main_arg5)) (m ((c : Thread nD τ).loc main_arg6)) :=
  calc W4 m ρ c (Proc.devRef .tc main_v12)
    _ = W3 m ρ c (Proc.devRef .tc main_v12) := W4_of_ne m ρ c main_v12 (by decide)
    _ = (dat1 (V2 m ρ) c).arrAt 3 cfg1.N := W3_arr m ρ c 3
    _ = ProjectionMath.rowsTimes (shapeCast S4096x768 (m ((c : Thread nD τ).loc main_arg1)) shapeCasts_S2x2048x768_S4096x768) (truncf (F := Ideal) .bf16 (transpose S768x768 [1, 0] (m ((c : Thread nD τ).loc main_arg5)) transposes_S768x768_S768x768_1_0) bitsLt_bf16_f32 : FVec Ideal S768x768 .bf16) (m ((c : Thread nD τ).loc main_arg6)) :=
        Projection1.array_eq (V2 m ρ) c _ _ _ ((W2_of_ne m ρ c main_v1 (by decide)).trans (flat1 m ρ c))
          ((W2_of_ne m ρ c main_v6 (by decide)).trans (turned5 m ρ c)) ((W2_of_ne m ρ c main_arg6 (by decide)).trans (bias6 m ρ c))
    _ = _ := Inputs.rows_of_input _ _ _

theorem values (c : Dev nD) : V4 m ρ c main_v13 = linear (m ((c : Thread nD τ).loc main_arg2)) (m ((c : Thread nD τ).loc main_arg7)) (m ((c : Thread nD τ).loc main_arg8)) :=
  calc W4 m ρ c (Proc.devRef .tc main_v13)
    _ = (dat2 (V3 m ρ) c).arrAt 3 cfg2.N := W4_arr m ρ c 3
    _ = ProjectionMath.rowsTimes (shapeCast S4096x768 (m ((c : Thread nD τ).loc main_arg2)) shapeCasts_S2x2048x768_S4096x768) (truncf (F := Ideal) .bf16 (transpose S768x768 [1, 0] (m ((c : Thread nD τ).loc main_arg7)) transposes_S768x768_S768x768_1_0) bitsLt_bf16_f32 : FVec Ideal S768x768 .bf16) (m ((c : Thread nD τ).loc main_arg8)) :=
        Projection2.array_eq (V3 m ρ) c _ _ _
          (((W3_of_ne m ρ c main_v2 (by decide)).trans (W2_of_ne m ρ c main_v2 (by decide))).trans (flat2 m ρ c))
          (((W3_of_ne m ρ c main_v8 (by decide)).trans (W2_of_ne m ρ c main_v8 (by decide))).trans (turned7 m ρ c))
          (((W3_of_ne m ρ c main_arg8 (by decide)).trans (W2_of_ne m ρ c main_arg8 (by decide))).trans (bias8 m ρ c))
    _ = _ := Inputs.rows_of_input _ _ _

/-! ## The two results -/

/-- THE ATTENTION WEIGHTS the kernel returns. -/
theorem weights_eq (c : Dev nD) : W7 m ρ c (Proc.devRef .tc main_v14_1)
    = modelWeights (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W7 m ρ c (Proc.devRef .tc main_v14_1)
    _ = W6 m ρ c (Proc.devRef .tc main_v14_1) := StableHlo.after_of_forall_not_mem (b := Proc.devRef .tc main_v14_1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v14_1) := W6_of_ne m ρ c main_v14_1 (by decide)
    _ = (dat3 (V4 m ρ) c).arrAt 4 cfg3.N := W5_arr m ρ c 4
    _ = _ := Attention.weights_array (V4 m ρ) c _ _ (queries m ρ c) (keys m ρ c)

/-- The mixed rows the attention launch leaves. -/
theorem mixed_eq (c : Dev nD) : V5 m ρ c main_v14_0
    = mixedWhole (linear (m ((c : Thread nD τ).loc main_arg0)) (m ((c : Thread nD τ).loc main_arg3)) (m ((c : Thread nD τ).loc main_arg4))) (linear (m ((c : Thread nD τ).loc main_arg1)) (m ((c : Thread nD τ).loc main_arg5)) (m ((c : Thread nD τ).loc main_arg6))) (linear (m ((c : Thread nD τ).loc main_arg2)) (m ((c : Thread nD τ).loc main_arg7)) (m ((c : Thread nD τ).loc main_arg8))) :=
  calc W5 m ρ c (Proc.devRef .tc main_v14_0)
    _ = (dat3 (V4 m ρ) c).arrAt 3 cfg3.N := W5_arr m ρ c 3
    _ = _ := Attention.mixed_array (V4 m ρ) c _ _ _ (queries m ρ c) (keys m ρ c) (values m ρ c)

/-- THE OUTPUT the kernel returns. -/
theorem out_eq (c : Dev nD) : W7 m ρ c (Proc.devRef .tc main_v16)
    = modelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h15 : W6 m ρ c (Proc.devRef .tc main_v15)
      = ProjectionMath.rowsTimes (mixedWhole (linear (m ((c : Thread nD τ).loc main_arg0)) (m ((c : Thread nD τ).loc main_arg3)) (m ((c : Thread nD τ).loc main_arg4))) (linear (m ((c : Thread nD τ).loc main_arg1)) (m ((c : Thread nD τ).loc main_arg5)) (m ((c : Thread nD τ).loc main_arg6))) (linear (m ((c : Thread nD τ).loc main_arg2)) (m ((c : Thread nD τ).loc main_arg7)) (m ((c : Thread nD τ).loc main_arg8))))
          (truncf (F := Ideal) .bf16 (transpose S768x768 [1, 0] (m ((c : Thread nD τ).loc main_arg9)) transposes_S768x768_S768x768_1_0) bitsLt_bf16_f32 : FVec Ideal S768x768 .bf16) (m ((c : Thread nD τ).loc main_arg10)) :=
    (W6_arr m ρ c 3).trans (Projection4.array_eq (V5 m ρ) c _ _ _ (mixed_eq m ρ c)
      (((((W5_of_ne m ρ c main_v10 (by decide)).trans (W4_of_ne m ρ c main_v10 (by decide))).trans (W3_of_ne m ρ c main_v10 (by decide))).trans
        (W2_of_ne m ρ c main_v10 (by decide))).trans (turned9 m ρ c))
      (((((W5_of_ne m ρ c main_arg10 (by decide)).trans (W4_of_ne m ρ c main_arg10 (by decide))).trans (W3_of_ne m ρ c main_arg10 (by decide))).trans
        (W2_of_ne m ρ c main_arg10 (by decide))).trans (bias10 m ρ c)))
  have h16 : W7 m ρ c (Proc.devRef .tc main_v16) = shapeCast S2x2048x768 (W6 m ρ c (Proc.devRef .tc main_v15)) shapeCasts_S4096x768_S2x2048x768 := by
    show StableHlo.after hostOps5 (W6 m ρ c) (Proc.devRef .tc main_v16) = _
    after_results
    rfl
  rw [h16, h15]
  exact Inputs.output_of_rows _ _ _

end Cert.KernelIdeal.Whole

end
-- ==== Proof.ReferenceStages.lean ====
/-
  The idealized reference, stage by stage, as the model's functions of the arguments.  The three projections are the
  linear maps; the scores are the head-wise products divided by √64, which is the product with one eighth; the softmax
  is spelled as a maximum over keys (joined with -∞), a subtraction, an exponential, a sum over keys from zero and a
  division; the weights against the values are laid back as flattened rows and projected.
-/
import proofs.«113033_j45612552684065_2_alg».proof.Proof.Gen.ReferenceIdeal.Read
import proofs.«113033_j45612552684065_2_alg».proof.Proof.ModelSpec
import Idealize.ShloMosaic.Lib.ValueIdx
import Idealize.ShloMosaic.PureOps.Reduce

set_option maxRecDepth 16384

noncomputable section

namespace Cert.ReferenceIdeal.Stages

open Idealize.ShloMosaic Idealize.ShloMosaic.TcCoe Idealize.SL.Sem Idealize.ShloMosaic.ValueIdx Cert.ReferenceIdeal Cert.ReferenceIdeal.Read ModelMath AttentionMath

open Facts₀ Facts

/-- Projection stage: entry `(n, s, f)` is the input row against row `f` of the weights, plus the bias. -/
theorem queries_flat (x : Input) (W : Square) (b : Bias) (n : Fin 2) (s : Fin 2048) (f : Fin 768) :
    val_main_v4 (F := Ideal) x W b (ix3 n s f) = linear x W b (ix2 (flatRow n s) f) := by
  rw [linear_at x W b (ix2 (flatRow n s) f) n s f rfl rfl, val_main_v4_apply, val_main_v1_apply, val_main_v3_apply, val_main_v2_apply]
  show (∑ e : Fin 768, x (lidx_main_v1 (ix3 n s f) e) * val_main_v0 (F := Ideal) W (ridx_main_v1 (ix3 n s f) e)) + b (idx_main_v2 (idx_main_v3 (ix3 n s f))) = _
  refine congrArg₂ (· + ·) (Finset.sum_congr rfl fun e _ => ?_) ?_
  · rw [val_main_v0_apply]
    refine congrArg₂ (· * ·) (congrArg x (funext fun a => Fin.ext (by
      match a with
      | ⟨0, _⟩ => rfl
      | ⟨1, _⟩ => rfl
      | ⟨2, _⟩ => rfl))) (congrArg W (funext fun a => Fin.ext (by
      match a with
      | ⟨0, _⟩ => rfl
      | ⟨1, _⟩ => rfl)))
  · exact congrArg b (funext fun a => Fin.ext (by
      match a with
      | ⟨0, _⟩ => rfl))

/-- Projection stage: entry `(n, s, f)` is the input row against row `f` of the weights, plus the bias. -/
theorem keys_flat (x : Input) (W : Square) (b : Bias) (n : Fin 2) (s : Fin 2048) (f : Fin 768) :
    val_main_v11 (F := Ideal) x W b (ix3 n s f) = linear x W b (ix2 (flatRow n s) f) := by
  rw [linear_at x W b (ix2 (flatRow n s) f) n s f rfl rfl, val_main_v11_apply, val_main_v8_apply, val_main_v10_apply, val_main_v9_apply]
  show (∑ e : Fin 768, x (lidx_main_v8 (ix3 n s f) e) * val_main_v7 (F := Ideal) W (ridx_main_v8 (ix3 n s f) e)) + b (idx_main_v9 (idx_main_v10 (ix3 n s f))) = _
  refine congrArg₂ (· + ·) (Finset.sum_congr rfl fun e _ => ?_) ?_
  · rw [val_main_v7_apply]
    refine congrArg₂ (· * ·) (congrArg x (funext fun a => Fin.ext (by
      match a with
      | ⟨0, _⟩ => rfl
      | ⟨1, _⟩ => rfl
      | ⟨2, _⟩ => rfl))) (congrArg W (funext fun a => Fin.ext (by
      match a with
      | ⟨0, _⟩ => rfl
      | ⟨1, _⟩ => rfl)))
  · exact congrArg b (funext fun a => Fin.ext (by
      match a with
      | ⟨0, _⟩ => rfl))

/-- Projection stage: entry `(n, s, f)` is the input row against row `f` of the weights, plus the bias. -/
theorem values_flat (x : Input) (W : Square) (b : Bias) (n : Fin 2) (s : Fin 2048) (f : Fin 768) :
    val_main_v18 (F := Ideal) x W b (ix3 n s f) = linear x W b (ix2 (flatRow n s) f) := by
  rw [linear_at x W b (ix2 (flatRow n s) f) n s f rfl rfl, val_main_v18_apply, val_main_v15_apply, val_main_v17_apply, val_main_v16_apply]
  show (∑ e : Fin 768, x (lidx_main_v15 (ix3 n s f) e) * val_main_v14 (F := Ideal) W (ridx_main_v15 (ix3 n s f) e)) + b (idx_main_v16 (idx_main_v17 (ix3 n s f))) = _
  refine congrArg₂ (· + ·) (Finset.sum_congr rfl fun e _ => ?_) ?_
  · rw [val_main_v14_apply]
    refine congrArg₂ (· * ·) (congrArg x (funext fun a => Fin.ext (by
      match a with
      | ⟨0, _⟩ => rfl
      | ⟨1, _⟩ => rfl
      | ⟨2, _⟩ => rfl))) (congrArg W (funext fun a => Fin.ext (by
      match a with
      | ⟨0, _⟩ => rfl
      | ⟨1, _⟩ => rfl)))
  · exact congrArg b (funext fun a => Fin.ext (by
      match a with
      | ⟨0, _⟩ => rfl))

/-- The same stage split into heads: entry `(n, h, s, d)` is column `64 h + d` of row `2048 n + s`. -/
theorem queries_heads (x : Input) (W : Square) (b : Bias) (n : Fin 2) (h : Fin 12) (s : Fin 2048) (d : Fin 64) :
    val_main_v6 (F := Ideal) x W b (ix4 n h s d) = linear x W b (ix2 (flatRow n s) (headCol h d)) := by
  rw [val_main_v6_apply, val_main_v5_apply]
  have hi : idx_main_v5 (idx_main_v6 (ix4 n h s d)) = ix3 n s (headCol h d) := funext fun a => Fin.ext (by
    have := n.isLt; have := h.isLt; have := s.isLt; have := d.isLt
    match a with
    | ⟨0, _⟩ => show (((n.val * 2048 + s.val) * 12 + h.val) * 64 + d.val) / 1572864 = n.val; omega
    | ⟨1, _⟩ => show (((n.val * 2048 + s.val) * 12 + h.val) * 64 + d.val) / 768 % 2048 = s.val; omega
    | ⟨2, _⟩ => show (((n.val * 2048 + s.val) * 12 + h.val) * 64 + d.val) % 768 = h.val * 64 + d.val; omega)
  rw [hi, queries_flat]

/-- The same stage split into heads: entry `(n, h, s, d)` is column `64 h + d` of row `2048 n + s`. -/
theorem keys_heads (x : Input) (W : Square) (b : Bias) (n : Fin 2) (h : Fin 12) (s : Fin 2048) (d : Fin 64) :
    val_main_v13 (F := Ideal) x W b (ix4 n h s d) = linear x W b (ix2 (flatRow n s) (headCol h d)) := by
  rw [val_main_v13_apply, val_main_v12_apply]
  have hi : idx_main_v12 (idx_main_v13 (ix4 n h s d)) = ix3 n s (headCol h d) := funext fun a => Fin.ext (by
    have := n.isLt; have := h.isLt; have := s.isLt; have := d.isLt
    match a with
    | ⟨0, _⟩ => show (((n.val * 2048 + s.val) * 12 + h.val) * 64 + d.val) / 1572864 = n.val; omega
    | ⟨1, _⟩ => show (((n.val * 2048 + s.val) * 12 + h.val) * 64 + d.val) / 768 % 2048 = s.val; omega
    | ⟨2, _⟩ => show (((n.val * 2048 + s.val) * 12 + h.val) * 64 + d.val) % 768 = h.val * 64 + d.val; omega)
  rw [hi, keys_flat]

/-- The same stage split into heads: entry `(n, h, s, d)` is column `64 h + d` of row `2048 n + s`. -/
theorem values_heads (x : Input) (W : Square) (b : Bias) (n : Fin 2) (h : Fin 12) (s : Fin 2048) (d : Fin 64) :
    val_main_v20 (F := Ideal) x W b (ix4 n h s d) = linear x W b (ix2 (flatRow n s) (headCol h d)) := by
  rw [val_main_v20_apply, val_main_v19_apply]
  have hi : idx_main_v19 (idx_main_v20 (ix4 n h s d)) = ix3 n s (headCol h d) := funext fun a => Fin.ext (by
    have := n.isLt; have := h.isLt; have := s.isLt; have := d.isLt
    match a with
    | ⟨0, _⟩ => show (((n.val * 2048 + s.val) * 12 + h.val) * 64 + d.val) / 1572864 = n.val; omega
    | ⟨1, _⟩ => show (((n.val * 2048 + s.val) * 12 + h.val) * 64 + d.val) / 768 % 2048 = s.val; omega
    | ⟨2, _⟩ => show (((n.val * 2048 + s.val) * 12 + h.val) * 64 + d.val) % 768 = h.val * 64 + d.val; omega)
  rw [hi, values_flat]

/-- The scaled scores. -/
theorem scores_stage (x0 x1 : Input) (x3 : Square) (x4 : Bias) (x5 : Square) (x6 : Bias) (n : Fin 2) (h : Fin 12) (s j : Fin 2048) :
    val_main_v24 (F := Ideal) x0 x1 x3 x4 x5 x6 (ix4 n h s j) = score (linear x0 x3 x4) (linear x1 x5 x6) n h s j := by
  rw [val_main_v24_apply, val_main_v21_apply, val_main_v23_apply, val_main_v22_apply, val_main_cst_apply]
  show Ideal.div (∑ d : Fin 64, val_main_v6 (F := Ideal) x0 x3 x4 (lidx_main_v21 (ix4 n h s j) d) * val_main_v13 (F := Ideal) x1 x5 x6 (ridx_main_v21 (ix4 n h s j) d))
    (Ideal.sqrt (Ideal.ofBits .f32 0x42800000#32)) = _
  rw [scale_eq]
  unfold score
  refine congrArg (· * _) (Finset.sum_congr rfl fun d _ => ?_)
  have hl : lidx_main_v21 (ix4 n h s j) d = ix4 n h s d := funext fun a => Fin.ext (by
      match a with
      | ⟨0, _⟩ => rfl
      | ⟨1, _⟩ => rfl
      | ⟨2, _⟩ => rfl
      | ⟨3, _⟩ => rfl)
  have hr : ridx_main_v21 (ix4 n h s j) d = ix4 n h j d := funext fun a => Fin.ext (by
      match a with
      | ⟨0, _⟩ => rfl
      | ⟨1, _⟩ => rfl
      | ⟨2, _⟩ => rfl
      | ⟨3, _⟩ => rfl)
  rw [hl, hr, queries_heads, keys_heads]

/-- The maximum over keys, joined with -∞. -/
theorem rowmax_stage (x0 x1 : Input) (x3 : Square) (x4 : Bias) (x5 : Square) (x6 : Bias) (n : Fin 2) (h : Fin 12) (s : Fin 2048) :
    val_main_v27 (F := Ideal) x0 x1 x3 x4 x5 x6 (ix3 n h s)
      = (Finset.univ : Finset (Fin 2048)).fold max (Ideal.ofBits .f32 0xFF800000#32) (fun j => score (linear x0 x3 x4) (linear x1 x5 x6) n h s j) := by
  rw [val_main_v27_apply, val_main_v26_apply, val_main_cst_1_apply]
  show max (Ideal.ofBits .f32 0xFF800000#32) (val_main_v25 (F := Ideal) x0 x1 x3 x4 x5 x6 (ix3 n h s)) = _
  rw [max_negInf]
  unfold val_main_v25
  have hR : S2x12x2048x2048.Reduces [3] S2x12x2048 := by decide
  rw [Host.reduce_eq_fold_single FloatOps.maximumf _ _ reducesTo_S2x12x2048x2048_S2x12x2048_d3 hR h_S_]
  have hf : (val_main_v24 (F := Ideal) x0 x1 x3 x4 x5 x6 ∘ hR.lift (ix3 n h s)) = fun j : Fin 2048 => score (linear x0 x3 x4) (linear x1 x5 x6) n h s j :=
    funext fun j => (congrArg (val_main_v24 (F := Ideal) x0 x1 x3 x4 x5 x6) (show hR.lift (ix3 n h s) j = ix4 n h s j from by
      funext c; apply Fin.ext; fin_cases c <;> rfl)).trans (scores_stage x0 x1 x3 x4 x5 x6 n h s j)
  exact congrArg (fun f => Finset.fold max (Ideal.ofBits .f32 0xFF800000#32) f (Finset.univ : Finset (Fin 2048))) hf

/-- The exponentials. -/
theorem exp_stage (x0 x1 : Input) (x3 : Square) (x4 : Bias) (x5 : Square) (x6 : Bias) (n : Fin 2) (h : Fin 12) (s j : Fin 2048) :
    val_main_v31 (F := Ideal) x0 x1 x3 x4 x5 x6 (ix4 n h s j)
      = Ideal.exp (score (linear x0 x3 x4) (linear x1 x5 x6) n h s j
          - (Finset.univ : Finset (Fin 2048)).fold max (Ideal.ofBits .f32 0xFF800000#32) (fun j' => score (linear x0 x3 x4) (linear x1 x5 x6) n h s j')) := by
  rw [val_main_v31_apply, val_main_v30_apply, val_main_v29_apply, val_main_v28_apply]
  have hi : idx_main_v28 (idx_main_v29 (ix4 n h s j)) = ix3 n h s := funext fun a => Fin.ext (by
      match a with
      | ⟨0, _⟩ => rfl
      | ⟨1, _⟩ => rfl
      | ⟨2, _⟩ => rfl)
  rw [hi, rowmax_stage, scores_stage]
  rfl

/-- The attention weights. -/
theorem weights_stage (x0 x1 : Input) (x3 : Square) (x4 : Bias) (x5 : Square) (x6 : Bias) (n : Fin 2) (h : Fin 12) (s j : Fin 2048) :
    val_main_v35 (F := Ideal) x0 x1 x3 x4 x5 x6 (ix4 n h s j) = weights (linear x0 x3 x4) (linear x1 x5 x6) n h s j := by
  rw [val_main_v35_apply, val_main_v34_apply, val_main_v33_apply, val_main_v32_apply, val_main_cst_2_apply, exp_stage]
  have hi : idx_main_v33 (idx_main_v34 (ix4 n h s j)) = ix3 n h s := funext fun a => Fin.ext (by
      match a with
      | ⟨0, _⟩ => rfl
      | ⟨1, _⟩ => rfl
      | ⟨2, _⟩ => rfl)
  rw [hi]
  have hk : ∀ k : Fin 2048, idx_main_v32 (ix3 n h s) k = ix4 n h s k := fun k => funext fun a => Fin.ext (by
      match a with
      | ⟨0, _⟩ => rfl
      | ⟨1, _⟩ => rfl
      | ⟨2, _⟩ => rfl
      | ⟨3, _⟩ => rfl)
  simp only [hk, exp_stage]
  unfold weights softmaxRow
  show Ideal.div _ (Ideal.ofBits .f32 0x00000000#32 + _) = _
  rw [word_zero_add]

/-- The weights array of the reference is the model's. -/
theorem weights_eq (x0 x1 : Input) (x3 : Square) (x4 : Bias) (x5 : Square) (x6 : Bias) : val_main_v35 (F := Ideal) x0 x1 x3 x4 x5 x6 = modelWeights x0 x1 x3 x4 x5 x6 := by
  funext i
  obtain ⟨n, h, s, j, rfl⟩ : ∃ (n : Fin 2) (h : Fin 12) (s j : Fin 2048), i = ix4 n h s j := ⟨i 0, i 1, i 2, i 3, eq_ix4 i⟩
  rw [weights_stage]
  exact (weightsWhole_at _ _ (ix4 n h s j) n h s j rfl rfl rfl rfl).symm

/-- The weights against the values, laid back as rows. -/
theorem mixed_stage (x0 x1 x2 : Input) (x3 : Square) (x4 : Bias) (x5 : Square) (x6 : Bias) (x7 : Square) (x8 : Bias) (n : Fin 2) (s : Fin 2048) (e : Fin 768) :
    val_main_v38 (F := Ideal) x0 x1 x2 x3 x4 x5 x6 x7 x8 (ix3 n s e)
      = mixedWhole (linear x0 x3 x4) (linear x1 x5 x6) (linear x2 x7 x8) (ix2 (flatRow n s) e) := by
  rw [val_main_v38_apply, val_main_v37_apply, val_main_v36_apply]
  have he : e.val < 768 := e.isLt
  have hi : idx_main_v37 (idx_main_v38 (ix3 n s e)) = ix4 n (⟨e.val / 64, by omega⟩ : Fin 12) s (⟨e.val % 64, by omega⟩ : Fin 64) := funext fun a => Fin.ext (by
    have := n.isLt; have := s.isLt
    match a with
    | ⟨0, _⟩ => show ((n.val * 2048 + s.val) * 768 + e.val) / 1572864 = n.val; omega
    | ⟨1, _⟩ => show ((n.val * 2048 + s.val) * 768 + e.val) / 64 % 12 = e.val / 64; omega
    | ⟨2, _⟩ => show ((n.val * 2048 + s.val) * 768 + e.val) / 768 % 2048 = s.val; omega
    | ⟨3, _⟩ => show ((n.val * 2048 + s.val) * 768 + e.val) % 64 = e.val % 64; omega)
  rw [hi, mixedWhole_at _ _ _ (ix2 (flatRow n s) e) n ⟨e.val / 64, by omega⟩ s ⟨e.val % 64, by omega⟩ rfl (by show e.val = e.val / 64 * 64 + e.val % 64; omega)]
  unfold mixed
  refine Finset.sum_congr rfl fun k _ => ?_
  have hl : lidx_main_v36 (ix4 n (⟨e.val / 64, by omega⟩ : Fin 12) s (⟨e.val % 64, by omega⟩ : Fin 64)) k = ix4 n (⟨e.val / 64, by omega⟩ : Fin 12) s k := funext fun a => Fin.ext (by
      match a with
      | ⟨0, _⟩ => rfl
      | ⟨1, _⟩ => rfl
      | ⟨2, _⟩ => rfl
      | ⟨3, _⟩ => rfl)
  have hr : ridx_main_v36 (ix4 n (⟨e.val / 64, by omega⟩ : Fin 12) s (⟨e.val % 64, by omega⟩ : Fin 64)) k = ix4 n (⟨e.val / 64, by omega⟩ : Fin 12) k (⟨e.val % 64, by omega⟩ : Fin 64) := funext fun a => Fin.ext (by
      match a with
      | ⟨0, _⟩ => rfl
      | ⟨1, _⟩ => rfl
      | ⟨2, _⟩ => rfl
      | ⟨3, _⟩ => rfl)
  rw [hl, hr, weights_stage, values_heads]

/-- The output of the reference is the model's. -/
theorem out_eq (x0 x1 x2 : Input) (x3 : Square) (x4 : Bias) (x5 : Square) (x6 : Bias) (x7 : Square) (x8 : Bias) (x9 : Square) (x10 : Bias) :
    val_main_v43 (F := Ideal) x0 x1 x2 x3 x4 x5 x6 x7 x8 x9 x10 = modelOut x0 x1 x2 x3 x4 x5 x6 x7 x8 x9 x10 := by
  funext i
  obtain ⟨n, s, f, rfl⟩ : ∃ (n : Fin 2) (s : Fin 2048) (f : Fin 768), i = ix3 n s f := ⟨i 0, i 1, i 2, eq_ix3 i⟩
  unfold modelOut
  rw [output_at, val_main_v43_apply, val_main_v40_apply, val_main_v42_apply, val_main_v41_apply]
  show (∑ e : Fin 768, val_main_v38 (F := Ideal) x0 x1 x2 x3 x4 x5 x6 x7 x8 (lidx_main_v40 (ix3 n s f) e) * val_main_v39 (F := Ideal) x9 (ridx_main_v40 (ix3 n s f) e))
    + x10 (idx_main_v41 (idx_main_v42 (ix3 n s f))) = _
  refine congrArg₂ (· + ·) (Finset.sum_congr rfl fun e _ => ?_) ?_
  · rw [val_main_v39_apply]
    have hl : lidx_main_v40 (ix3 n s f) e = ix3 n s e := funext fun a => Fin.ext (by
      match a with
      | ⟨0, _⟩ => rfl
      | ⟨1, _⟩ => rfl
      | ⟨2, _⟩ => rfl)
    rw [hl, mixed_stage]
    exact congrArg (_ * ·) (congrArg x9 (funext fun a => Fin.ext (by
      match a with
      | ⟨0, _⟩ => rfl
      | ⟨1, _⟩ => rfl)))
  · exact congrArg x10 (funext fun a => Fin.ext (by
      match a with
      | ⟨0, _⟩ => rfl))

end Cert.ReferenceIdeal.Stages

end
-- ==== Proof.lean ====
/-
  Multi-head attention in five launches against its reference, over the extended reals.

  The kernel reshapes the three `[2, 2048, 768]` inputs to 4096 flattened rows, transposes the four weight matrices, and
  runs three projection launches (row bands of 512 against the whole weight matrix, plus the bias), one attention launch
  over `(batch, head pair, 256-row query tile)` — scores of the tile's rows against all 2048 keys over each half's 64
  columns, scaled by one eighth, a row softmax, the weights stored, the weights against the value rows — and a last
  projection launch, whose result is reshaped back.  The reference projects with `einsum`, splits into heads by a reshape
  and a transpose, divides the scores by √64, applies `softmax` (maximum joined with -∞, subtract, exponential, sum from
  zero, divide), contracts with the values, undoes the head split and projects.

  Both are one function of the eleven arguments, `ModelMath.modelOut` and `ModelMath.modelWeights`: every product is a
  finite sum of the same terms (the kernel's matrix products into zero accumulators; the narrowing to the matrix unit's
  format is the identity on extended reals), √64 = 8 and division by 8 is multiplication by one eighth on every
  extended real, and the maximum with -∞ is the identity.  No step uses finiteness of the inputs.  The kernel's side is
  read off the run of its seven segments (the buffers' contents at the segment boundaries), launch by launch; the
  reference's side off its run, operation by operation.  The idealization rewrote nothing, so `preserves` is `True`.
-/
import proofs.«113033_j45612552684065_2_alg».proof.Defs
import proofs.«113033_j45612552684065_2_alg».proof.Proof.Gen.Kernel
import proofs.«113033_j45612552684065_2_alg».proof.Proof.Gen.Kernel.Skeleton
import proofs.«113033_j45612552684065_2_alg».proof.Proof.Gen.Kernel.Launch
import proofs.«113033_j45612552684065_2_alg».proof.Proof.Gen.Kernel.Points
import proofs.«113033_j45612552684065_2_alg».proof.Proof.Gen.Kernel.Frame
import proofs.«113033_j45612552684065_2_alg».proof.Proof.Gen.KernelIdeal
import proofs.«113033_j45612552684065_2_alg».proof.Proof.Gen.KernelIdeal.Skeleton
import proofs.«113033_j45612552684065_2_alg».proof.Proof.Gen.KernelIdeal.Launch
import proofs.«113033_j45612552684065_2_alg».proof.Proof.Gen.KernelIdeal.Points
import proofs.«113033_j45612552684065_2_alg».proof.Proof.Gen.KernelIdeal.Frame
import proofs.«113033_j45612552684065_2_alg».proof.Proof.Gen.ReferenceIdeal
import proofs.«113033_j45612552684065_2_alg».proof.Proof.Gen.ReferenceIdeal.Run
import proofs.«113033_j45612552684065_2_alg».proof.Proof.Gen.ReferenceIdeal.Read
import proofs.«113033_j45612552684065_2_alg».proof.Proof.Gen.Pre_finite_inputs
import proofs.«113033_j45612552684065_2_alg».proof.Proof.KernelRun
import proofs.«113033_j45612552684065_2_alg».proof.Proof.KernelValue
import proofs.«113033_j45612552684065_2_alg».proof.Proof.ReferenceStages
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both runs end with the model's two arrays of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 m ρ c (Proc.devRef .tc Cert.KernelIdeal.main_v16),
    fun c => Cert.KernelIdeal.Gen.W7 m ρ c (Proc.devRef .tc Cert.KernelIdeal.main_v14_1),
    Cert.KernelIdeal.Outputs.run_named m ρ, ?_⟩
  refine (θ_run Cert.ReferenceIdeal.defs _ _).mono (fun _ h c => ⟨?_, ?_, (h c).2.2⟩)
    (Cert.ReferenceIdeal.Value.run (F := Ideal) m' ρ')
  · refine ((h c).1.trans ((Cert.ReferenceIdeal.Read.val_main_v43_eq m' c).trans
      (Cert.ReferenceIdeal.Stages.out_eq _ _ _ _ _ _ _ _ _ _ _))).trans ?_
    obtain ⟨a0, a1, a2, a3, a4, a5, a6, a7, a8, a9, a10⟩ := hagree c
    rw [a0, a1, a2, a3, a4, a5, a6, a7, a8, a9, a10]
    exact (Cert.KernelIdeal.Whole.out_eq m ρ c).symm
  · refine ((h c).2.1.trans ((Cert.ReferenceIdeal.Read.val_main_v35_eq m' c).trans
      (Cert.ReferenceIdeal.Stages.weights_eq _ _ _ _ _ _))).trans ?_
    obtain ⟨a0, a1, a2, a3, a4, a5, a6, a7, a8, a9, a10⟩ := hagree c
    rw [a0, a1, a3, a4, a5, a6]
    exact (Cert.KernelIdeal.Whole.weights_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
